-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S1048576x64 .f32) (main_arg1 : FVec F S64x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S1048576x64 : Shape := ⟨2, ![1048576, 64]⟩
abbrev S64x64 : Shape := ⟨2, ![64, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S16x64 : Shape := ⟨2, ![16, 64]⟩
abbrev S8192x64 : Shape := ⟨2, ![8192, 64]⟩
abbrev S8x64 : Shape := ⟨2, ![8, 64]⟩
abbrev S8192 : Shape := ⟨1, ![8192]⟩
abbrev S8192x1 : Shape := ⟨2, ![8192, 1]⟩

abbrev nBuf : Space → Nat
  | .hbm => 13
  | .vmem => 14
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S64x64, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S1x64, .f32⟩
  | .hbm, ⟨7, _⟩ => ⟨S1048576x64, .f32⟩
  | .hbm, ⟨8, _⟩ => ⟨S16x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1048576x64, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S1x64, .f32⟩
  | .local _ .vmem, ⟨4, _⟩ => ⟨S8192x64, .f32⟩
  | .local _ .vmem, ⟨5, _⟩ => ⟨S8192x64, .f32⟩
  | .local _ .vmem, ⟨6, _⟩ => ⟨S8x64, .f32⟩
  | .local _ .vmem, ⟨7, _⟩ => ⟨S8x64, .f32⟩
  | .local _ .vmem, ⟨8, _⟩ => ⟨S1x64, .f32⟩
  | .local _ .vmem, ⟨9, _⟩ => ⟨S8192x64, .f32⟩
  | .local _ .vmem, ⟨10, _⟩ => ⟨S8192x64, .f32⟩
  | .local _ .vmem, ⟨11, _⟩ => ⟨S1x64, .f32⟩
  | .local _ .vmem, ⟨12, _⟩ => ⟨S8192x64, .f32⟩
  | .local _ .vmem, ⟨13, _⟩ => ⟨S8192x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c63_i32 : BitVec 32 := 63#32
  let v41 : BitVec 1 := Scalar.cmpi .eq arg1 c63_i32
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S64x64_S64_d1 : S64x64.ReducesTo [1] S64
  h_S_ : 0 < S_.numel
  bcast_S64_S64x1_0 : S64.BroadcastsInDim S64x1 (![0] : Fin 1 → Fin S64x1.rank)
  transposes_S64x1_S1x64_1_0 : S64x1.Transposes [1, 0] S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8x64_S8x64_0_0 : ∀ a, (![0, 0] : Fin 2 → Nat) a + S8x64.size a ≤ S8x64.size a
  h_S8x64 : 0 < S8x64.numel
  inb_S8192x64_S8192x64_0_0 : ∀ a, (![0, 0] : Fin 2 → Nat) a + S8192x64.size a ≤ S8192x64.size a
  h_S8192x64 : 0 < S8192x64.numel
  inb_S64x64_S64x64_0_0 : ∀ a, (![0, 0] : Fin 2 → Nat) a + S64x64.size a ≤ S64x64.size a
  h_S64x64 : 0 < S64x64.numel
  reduces_S8192x64_S8192 : S8192x64.Reduces [1] S8192
  shapeCasts_S8192_S8192x1 : S8192.ShapeCasts S8192x1
  bitsLt_bf16_f32 : FTy.bits .bf16 < FTy.bits .f32
  transposes_S64x64_p1_0_S64x64 : S64x64.Transposes [1, 0] S64x64
  broadcasts_S8192x1_S8192x64 : S8192x1.Broadcasts S8192x64
  broadcasts_S1x64_S8192x64 : S1x64.Broadcasts S8192x64
  reduces_S8192x64_S64 : S8192x64.Reduces [0] S64
  shapeCasts_S64_S1x64 : S64.ShapeCasts S1x64
  inb_S8x64_S1x64_0_0 : ∀ a, (![0, 0] : Fin 2 → Nat) a + S1x64.size a ≤ S8x64.size a
  slices_S16x64_S1x64_0_0 : S16x64.Slices ![0, 0] S1x64
  slices_S16x64_S1x64_8_0 : S16x64.Slices ![8, 0] S1x64
  shapeCasts_S8192x64_S8192x64 : S8192x64.ShapeCasts S8192x64
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S1048576x64.size a
  hwx0_3 : ∀ i : grid0.Coords, EltTy.bits .f32 = 32 ∨ (Rect.block (s := S1048576x64) S8192x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S16x64.size a
  hwx0_4 : ∀ i : grid0.Coords, EltTy.bits .f32 = 32 ∨ (Rect.block (s := S16x64) S8x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1048576x64.size a
  hwx1_0 : ∀ i : grid1.Coords, EltTy.bits .f32 = 32 ∨ (Rect.block (s := S1048576x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1048576x64.size a
  hwx1_2 : ∀ i : grid1.Coords, EltTy.bits .f32 = 32 ∨ (Rect.block (s := S1048576x64) S8192x64.size (cc1_transform_2 i) (hinb1_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S8192x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_v4_0) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S_ : Shape := ⟨0, ![]⟩
abbrev S1048576 : Shape := ⟨1, ![1048576]⟩
abbrev S1048576x1 : Shape := ⟨2, ![1048576, 1]⟩
abbrev S64 : Shape := ⟨1, ![64]⟩
abbrev S1x64 : Shape := ⟨2, ![1, 64]⟩

abbrev nBuf : Space → Nat
  | .hbm => 48
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S1048576x64, .f32⟩
  | .hbm, ⟨3, _⟩ => ⟨S_, .f32⟩
  | .hbm, ⟨4, _⟩ => ⟨S1048576, .f32⟩
  | .hbm, ⟨5, _⟩ => ⟨S1048576x1, .f32⟩
  | .hbm, ⟨6, _⟩ => ⟨S64x64, .f32⟩
  | .hbm, ⟨7, _⟩ => ⟨S_, .f32⟩
  | .hbm, ⟨8, _⟩ => ⟨S64, .f32⟩
  | .hbm, ⟨9, _⟩ => ⟨S1x64, .f32⟩
  | .hbm, ⟨10, _⟩ => ⟨S1048576x64, .f32⟩
  | .hbm, ⟨11, _⟩ => ⟨S1048576x64, .f32⟩
  | .hbm, ⟨12, _⟩ => ⟨S1048576x64, .f32⟩
  | .hbm, ⟨13, _⟩ => ⟨S64x64, .f32⟩
  | .hbm, ⟨14, _⟩ => ⟨S1048576x64, .f32⟩
  | .hbm, ⟨15, _⟩ => ⟨S_, .f32⟩
  | .hbm, ⟨16, _⟩ => ⟨S1048576x64, .f32⟩
  | .hbm, ⟨17, _⟩ => ⟨S1048576x64, .f32⟩
  | .hbm, ⟨18, _⟩ => ⟨S1048576x64, .f32⟩
  | .hbm, ⟨19, _⟩ => ⟨S_, .f32⟩
  | .hbm, ⟨20, _⟩ => ⟨S1048576x64, .f32⟩
  | .hbm, ⟨21, _⟩ => ⟨S1048576x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S_, .f32⟩
  | .hbm, ⟨27, _⟩ => ⟨S1048576x64, .f32⟩
  | .hbm, ⟨28, _⟩ => ⟨S1048576x64, .f32⟩
  | .hbm, ⟨29, _⟩ => ⟨S_, .f32⟩
  | .hbm, ⟨30, _⟩ => ⟨S1048576x64, .f32⟩
  | .hbm, ⟨31, _⟩ => ⟨S1048576x64, .f32⟩
  | .hbm, ⟨32, _⟩ => ⟨S_, .f32⟩
  | .hbm, ⟨33, _⟩ => ⟨S1048576, .f32⟩
  | .hbm, ⟨34, _⟩ => ⟨S1048576x1, .f32⟩
  | .hbm, ⟨35, _⟩ => ⟨S1048576x64, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S64, .f32⟩
  | .hbm, ⟨40, _⟩ => ⟨S1x64, .f32⟩
  | .hbm, ⟨41, _⟩ => ⟨S1048576x64, .f32⟩
  | .hbm, ⟨42, _⟩ => ⟨S1048576x64, .f32⟩
  | .hbm, ⟨43, _⟩ => ⟨S_, .f32⟩
  | .hbm, ⟨44, _⟩ => ⟨S1048576, .f32⟩
  | .hbm, ⟨45, _⟩ => ⟨S1048576x1, .f32⟩
  | .hbm, ⟨46, _⟩ => ⟨S1048576x64, .f32⟩
  | .hbm, ⟨47, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S1048576x64_S1048576_d1 : S1048576x64.ReducesTo [1] S1048576
  h_S_ : 0 < S_.numel
  bcast_S1048576_S1048576x1_0 : S1048576.BroadcastsInDim S1048576x1 (![0] : Fin 1 → Fin S1048576x1.rank)
  reducesTo_S64x64_S64_d1 : S64x64.ReducesTo [1] S64
  bcast_S64_S1x64_1 : S64.BroadcastsInDim S1x64 (![1] : Fin 1 → Fin S1x64.rank)
  bcast_S1048576x1_S1048576x64_0_1 : S1048576x1.BroadcastsInDim S1048576x64 (![0, 1] : Fin 2 → Fin S1048576x64.rank)
  bcast_S1x64_S1048576x64_0_1 : S1x64.BroadcastsInDim S1048576x64 (![0, 1] : Fin 2 → Fin S1048576x64.rank)
  transposes_S64x64_S64x64_1_0 : S64x64.Transposes [1, 0] S64x64
  bcast_S_S1048576x64 : S_.BroadcastsInDim S1048576x64 (![] : Fin 0 → Fin S1048576x64.rank)
  reducesTo_S1048576x64_S64_d0 : S1048576x64.ReducesTo [0] S64
  dot_S1048576x64_S64x64_S1048576x64_1_0_0_1_n_n_wf : DotDims.WF S1048576x64 S64x64 S1048576x64 [1] [0] [0] [1] [] []

variable [Facts₀]

def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf

class Facts : Prop extends Facts₀ where

variable [Facts]
-- ==== Proof.KBody1.lean ====
/-
  The second kernel's body on whole staging buffers: it loads the block of soft assignments and the row of column sums,
  and stores into its output buffer the sharpened, row-normalised block, a pure function of the two loads.
-/
import proofs.«115045_j25494925869839_2_alg».proof.Proof.Gen.Kernel.Launch
import proofs.«115045_j25494925869839_2_alg».proof.Proof.Gen.Kernel.Skeleton
import proofs.«115045_j25494925869839_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 rectangle, however spelt. -/
theorem hz2 : (![0, 0] : Fin 2 → ℕ) = fun _ => 0 := by
  funext a; match a with | ⟨0, _⟩ => rfl | ⟨1, _⟩ => rfl

set_option maxHeartbeats 1000000 in
/-- The body on whole staging buffers, the two inputs at contents `x1`, `x2` and the output at anything: it runs to
    the continuation with the inputs as they were and the output at the payload of the two inputs. -/
theorem sound_kernel1 (c : Dev nD) (E : Set ℕ) (i : grid1.Coords)
    (arg1 : Memref sig .tc .vmem S8192x64 .f32) (harg1 : arg1.IsWhole)
    (arg2 : Memref sig .tc .vmem S1x64 .f32) (harg2 : arg2.IsWhole)
    (arg3 : Memref sig .tc .vmem S8192x64 .f32) (harg3 : arg3.IsWhole)
    (x1 : Vec F S8192x64 .f32) (x2 : Vec F S1x64 .f32) (K : PUnit → sProp 𝕄) :
    iprop(owns (c : Thread nD τ) arg1 fullShare x1 ∗ owns (c : Thread nD τ) arg2 fullShare x2 ∗ (∃ d, owns (c : Thread nD τ) arg3 fullShare d)
        ∗ (iprop(owns (c : Thread nD τ) arg1 fullShare x1 ∗ owns (c : Thread nD τ) arg2 fullShare x2
            ∗ owns (c : Thread nD τ) arg3 fullShare (k1_pay1 x1 x2)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz2 inb_S8192x64_S8192x64_0_0 y⟩),
    View.canon_unit_zero hz2]
  simp only [View.readAt_eq_ld, View.ld_unit_zero (S := S8192x64) hz2, View.ld_unit_zero (S := S1x64) hz2]

end Cert.Kernel.Fr

end
-- ==== Proof.KBody0.lean ====
/-
  The first kernel's body on whole staging buffers, in each of the three cases the grid meets: the first step of a core's
  row of the grid (the accumulator and the column-sum block are zeroed first), a middle step, and the last step (row 0 of
  the column-sum block takes the accumulator). In every case the block of soft assignments is stored whole and the
  accumulator takes its old contents plus the block's column sums.
-/
import proofs.«115045_j25494925869839_2_alg».proof.Proof.Gen.Kernel.Launch
import proofs.«115045_j25494925869839_2_alg».proof.Proof.Gen.Kernel.Skeleton
import proofs.«115045_j25494925869839_2_alg».proof.Proof.Gen.Kernel.Points
import proofs.«115045_j25494925869839_2_alg».proof.Proof.KBody1
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Row 0 of an 8-row block replaced by a one-row block, the other rows kept. -/
def rowUpd (x6 : Vec F S8x64 .f32) (a : Vec F S1x64 .f32) : Vec F S8x64 .f32 :=
  fun j => if (j 0).val < 1 then a (ValueIdx.ix2 (n0 := 1) (n1 := 64) 0 (j 1)) else x6 j

set_option maxHeartbeats 2000000 in
/-- The first step of a core's row of the grid: the accumulator and the column-sum block are zeroed, then the
    accumulator takes zero plus the block's column sums. -/
theorem sound_kernel0_A (c : Dev nD) (E : Set ℕ) (i : grid0.Coords)
    (arg2 : Memref sig .tc .vmem S8192x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S8192x64 .f32) (harg5 : arg5.IsWhole)
    (arg6 : Memref sig .tc .vmem S8x64 .f32) (harg6 : arg6.IsWhole)
    (arg7 : Memref sig .tc .vmem S1x64 .f32) (harg7 : arg7.IsWhole)
    (hc1 : k0_cond1 i = 1#1) (hc2 : ¬ k0_cond2 i = 1#1)
    (x2 : Vec F S8192x64 .f32) (x3 : Vec F S64x64 .f32) (x4 : Vec F S1x64 .f32) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x2 x3 x4)
            ∗ owns (c : Thread nD τ) arg6 fullShare (k0_pay3 (F := F))
            ∗ owns (c : Thread nD τ) arg7 fullShare (k0_pay1 (k0_pay5 x2 x3 x4) (k0_pay2 (F := F)))) -∗ K ⟨⟩))
      ⊢ wp frame (wpE (defs₀ (F := F)) Variants.none c none) E (cc0__kernel_a i arg2 harg2 arg3 harg3 arg4 harg4 arg5 harg5 arg6 harg6 arg7 harg7) K := by
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S8192x64_S8192x64_0_0 y⟩),
      View.canon_unit_zero hz2]
    simp only [View.readAt_eq_ld, View.ld_unit_zero (S := S8192x64) hz2, View.ld_unit_zero (S := S64x64) hz2, View.ld_unit_zero (S := S1x64) hz2]
  isplitl [H6]
  · iexists _; isplitr
    swap; · iexact H6
    ipureintro
    rw [View.read_writes_eq_canon _ _ _ (fun y => ⟨_, List.mem_singleton_self _, View.mem_set_unit_zero hz2 inb_S8x64_S8x64_0_0 y⟩),
      View.canon_unit_zero hz2]
  iexists _; isplitr
  swap; · iexact H7
  ipureintro
  rw [View.read_writes_eq_canon _ _ _ (fun y => ⟨_, List.mem_cons_self, View.mem_set_unit_zero hz2 inb_S1x64_S1x64_0_0 y⟩),
    View.canon_cons_unit_zero hz2]
  sl_unfold_run_names
  rw [View.readCov_unit_zero _ hz2]
  simp only [View.readAt_eq_ld, View.ld_unit_zero (S := S8192x64) hz2, View.ld_unit_zero (S := S64x64) hz2, View.ld_unit_zero (S := S1x64) hz2]

set_option maxHeartbeats 2000000 in
/-- A middle step: the column-sum block is handed back untouched, the accumulator takes its old contents plus the
    block's column sums. -/
theorem sound_kernel0_B (c : Dev nD) (E : Set ℕ) (i : grid0.Coords)
    (arg2 : Memref sig .tc .vmem S8192x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S8192x64 .f32) (harg5 : arg5.IsWhole)
    (arg6 : Memref sig .tc .vmem S8x64 .f32) (harg6 : arg6.IsWhole)
    (arg7 : Memref sig .tc .vmem S1x64 .f32) (harg7 : arg7.IsWhole)
    (hc1 : ¬ k0_cond1 i = 1#1) (hc2 : ¬ k0_cond2 i = 1#1)
    (x2 : Vec F S8192x64 .f32) (x3 : Vec F S64x64 .f32) (x4 : Vec F S1x64 .f32) (x6 : Vec F S8x64 .f32) (xs : Vec F S1x64 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare x6 ∗ owns (c : Thread nD τ) arg7 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x2 x3 x4)
            ∗ owns (c : Thread nD τ) arg6 fullShare x6
            ∗ owns (c : Thread nD τ) arg7 fullShare (k0_pay1 (k0_pay5 x2 x3 x4) xs)) -∗ K ⟨⟩))
      ⊢ wp frame (wpE (defs₀ (F := F)) Variants.none c none) E (cc0__kernel_a i arg2 harg2 arg3 harg3 arg4 harg4 arg5 harg5 arg6 harg6 arg7 harg7) K := by
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2; subst hf3; subst hf4; subst hf6; subst hf7
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S8192x64_S8192x64_0_0 y⟩),
      View.canon_unit_zero hz2]
    simp only [View.readAt_eq_ld, View.ld_unit_zero (S := S8192x64) hz2, View.ld_unit_zero (S := S64x64) hz2, View.ld_unit_zero (S := S1x64) hz2]
  isplitl [H6]
  · iexists f6; isplitr; · ipureintro; rfl
    iexact H6
  iexists _; isplitr
  swap; · iexact H7
  ipureintro
  rw [View.read_writes_eq_canon _ _ _ (fun y => ⟨_, List.mem_singleton_self _, View.mem_set_unit_zero hz2 inb_S1x64_S1x64_0_0 y⟩),
    View.canon_unit_zero hz2]
  try sl_unfold_run_names
  simp only [View.readAt_eq_ld, View.ld_unit_zero (S := S8192x64) hz2, View.ld_unit_zero (S := S64x64) hz2, View.ld_unit_zero (S := S1x64) hz2]

set_option maxHeartbeats 2000000 in
/-- The last step of a core's row of the grid: as a middle step, and then row 0 of the column-sum block takes the
    accumulator's new contents, the other rows kept. -/
theorem sound_kernel0_C (c : Dev nD) (E : Set ℕ) (i : grid0.Coords)
    (arg2 : Memref sig .tc .vmem S8192x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S8192x64 .f32) (harg5 : arg5.IsWhole)
    (arg6 : Memref sig .tc .vmem S8x64 .f32) (harg6 : arg6.IsWhole)
    (arg7 : Memref sig .tc .vmem S1x64 .f32) (harg7 : arg7.IsWhole)
    (hc1 : ¬ k0_cond1 i = 1#1) (hc2 : k0_cond2 i = 1#1)
    (x2 : Vec F S8192x64 .f32) (x3 : Vec F S64x64 .f32) (x4 : Vec F S1x64 .f32) (x6 : Vec F S8x64 .f32) (xs : Vec F S1x64 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare x6 ∗ owns (c : Thread nD τ) arg7 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x2 x3 x4)
            ∗ owns (c : Thread nD τ) arg6 fullShare (rowUpd x6 (k0_pay1 (k0_pay5 x2 x3 x4) xs))
            ∗ owns (c : Thread nD τ) arg7 fullShare (k0_pay1 (k0_pay5 x2 x3 x4) xs)) -∗ K ⟨⟩))
      ⊢ wp frame (wpE (defs₀ (F := F)) Variants.none c none) E (cc0__kernel_a i arg2 harg2 arg3 harg3 arg4 harg4 arg5 harg5 arg6 harg6 arg7 harg7) K := by
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2; subst hf3; subst hf4; subst hf6; subst hf7
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S8192x64_S8192x64_0_0 y⟩),
      View.canon_unit_zero hz2]
    simp only [View.readAt_eq_ld, View.ld_unit_zero (S := S8192x64) hz2, View.ld_unit_zero (S := S64x64) hz2, View.ld_unit_zero (S := S1x64) hz2]
  isplitl [H6]
  · iexists _; isplitr
    swap; · iexact H6
    ipureintro
    try sl_unfold_run_names
    rw [View.readCov_unit_zero _ hz2]
    simp only [View.readAt_eq_ld, View.ld_unit_zero (S := S8192x64) hz2, View.ld_unit_zero (S := S64x64) hz2, View.ld_unit_zero (S := S1x64) hz2]
    funext y
    unfold rowUpd
    by_cases h : (y 0).val < 1
    · rw [if_pos h]
      exact View.read_writes_cons_rows_of_mem (o := 0) arg6.view f6 inb_S8x64_S1x64_0_0 _ [] y (ValueIdx.ix2 (n0 := 1) (n1 := 64) 0 (y 1)) rfl
        (by have h' : (y 0).val = 0 := by omega
            exact h'.trans rfl) rfl
    · rw [if_neg h]
      exact (View.read_writes_cons_rows_of_not_mem (o := 0) (W := 1) arg6.view f6 inb_S8x64_S1x64_0_0 _ [] y rfl rfl
        (Or.inr (by omega))).trans (by rw [View.writes_nil])
  iexists _; isplitr
  swap; · iexact H7
  ipureintro
  try sl_unfold_run_names
  rw [View.read_writes_eq_canon _ _ _ (fun y => ⟨_, List.mem_singleton_self _, View.mem_set_unit_zero hz2 inb_S1x64_S1x64_0_0 y⟩),
    View.canon_unit_zero hz2]
  simp only [View.readAt_eq_ld, View.ld_unit_zero (S := S8192x64) hz2, View.ld_unit_zero (S := S64x64) hz2, View.ld_unit_zero (S := S1x64) hz2]

end Cert.Kernel.Fr

end
-- ==== Proof.KData.lean ====
/-
  The proof data of the two pipelines, at the buffer contents `V` a region is entered with, and each body's obligation.

  First pipeline (a grid of 2 × 64 steps, each core's 64 steps in a row): at step `t` the block of soft assignments is the
  payload of the step's three input blocks; the accumulator after step `t` is the running total of the blocks' column sums
  since the row's first step; the column-sum block holds zeros until the row's last step, where its row 0 takes the total.
  Second pipeline (128 steps): the output block is the payload of the step's two input blocks.
-/
import proofs.«115045_j25494925869839_2_alg».proof.Proof.Gen.Kernel.Launch
import proofs.«115045_j25494925869839_2_alg».proof.Proof.Gen.Kernel.Skeleton
import proofs.«115045_j25494925869839_2_alg».proof.Proof.Gen.Kernel.Points
import proofs.«115045_j25494925869839_2_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first pipeline -/

/-- Window `w`'s block at step `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every step, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The block of soft assignments step `t` stores, and its column sums. -/
def qblk0 (c : Dev nD) (t : Fin cfg0.N) : Vec F S8192x64 .f32 := k0_pay4 (iblk0 V c 0 t) (iblk0 V c 1 t) (iblk0 V c 2 t)
def part0 (c : Dev nD) (t : Fin cfg0.N) : Vec F S1x64 .f32 := k0_pay5 (iblk0 V c 0 t) (iblk0 V c 1 t) (iblk0 V c 2 t)

/-- THE ACCUMULATOR after step `n`: at a row's first step zero plus the step's column sums, afterwards what the step
    before left plus the step's column sums. -/
def accAt (c : Dev nD) : (n : ℕ) → n < cfg0.N → Vec F S1x64 .f32
  | 0, hn => k0_pay1 (part0 V c ⟨0, hn⟩) (k0_pay2 (F := F))
  | n + 1, hn =>
    if (n + 1) % 64 = 0 then k0_pay1 (part0 V c ⟨n + 1, hn⟩) (k0_pay2 (F := F))
    else k0_pay1 (part0 V c ⟨n + 1, hn⟩) (accAt c n (Nat.lt_of_succ_lt hn))

theorem accAt_first (c : Dev nD) (t : Fin cfg0.N) (h : t.val % 64 = 0) :
    accAt V c t.val t.isLt = k0_pay1 (part0 V c t) (k0_pay2 (F := F)) := by
  obtain ⟨n, hn⟩ := t
  cases n with
  | zero => rfl
  | succ n => exact (if_pos h).trans rfl

theorem accAt_next (c : Dev nD) (t : Fin cfg0.N) (h : ¬ t.val % 64 = 0) :
    accAt V c t.val t.isLt = k0_pay1 (part0 V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The column-sum block of zeros, and what the block holds after step `t`: zeros, but at a row's last step row 0 is
    the accumulator. -/
abbrev Z4 : Vec F S8x64 .f32 := k0_pay3 (F := F)
def out4 (c : Dev nD) (t : Fin cfg0.N) : Vec F S8x64 .f32 :=
  if t.val % 64 = 63 then rowUpd (Z4 (F := F)) (accAt V c t.val t.isLt) else Z4

/-- The scratch operand: a whole scoped buffer of the kernel's own. -/
abbrev scM0 : Memref sig .tc .vmem S1x64 .f32 := Memref.whole cc0_scratch0

/-- The scoped buffers of the core that are neither this pipeline's staging buffers nor its scratch, each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

/-- The region invariant before step `n`: before the first step the class's; afterwards the scratch at the accumulator
    the step before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (accAt V c n hn) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare (accAt V c (n - 1) (by omega)) ∗ restS (F := F) c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qblk0 V c t
    | ⟨4, _⟩ => out4 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = qblk0 V c t := by dsimp only [dat0]
theorem after0_4 (c : Dev nD) (t : Fin cfg0.N) : (dat0 V c).after 4 t = out4 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's two conditions and the column-sum window's idle steps, decided over the grid -/

theorem hcond1 : ∀ t : Fin cfg0.N, k0_cond1 (grid0.coords t) = 1#1 ↔ t.val % 64 = 0 :=
  (by decide +kernel : ∀ t : Fin grid0.N, k0_cond1 (grid0.coords t) = 1#1 ↔ t.val % 64 = 0)
theorem hcond2 : ∀ t : Fin cfg0.N, k0_cond2 (grid0.coords t) = 1#1 ↔ t.val % 64 = 63 :=
  (by decide +kernel : ∀ t : Fin grid0.N, k0_cond2 (grid0.coords t) = 1#1 ↔ t.val % 64 = 63)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem idleAt0_4 : ∀ t : Fin cfg0.N, cfg0.idle 4 (grid0.coords t) = true ↔ (¬ t.val % 64 = 0 ∧ ¬ t.val % 64 = 63) :=
  (by decide +kernel : ∀ t : Fin grid0.N, idle0 4 (grid0.coords t) = true ↔ (¬ t.val % 64 = 0 ∧ ¬ t.val % 64 = 63))
theorem idleAt0_4_true (t : Fin cfg0.N) (h0 : ¬ t.val % 64 = 0) (h1 : ¬ t.val % 64 = 63) : cfg0.idle 4 (grid0.coords t) = true :=
  (idleAt0_4 t).mpr ⟨h0, h1⟩
theorem idleAt0_4_false (t : Fin cfg0.N) (h : t.val % 64 = 0 ∨ t.val % 64 = 63) : cfg0.idle 4 (grid0.coords t) = false := by
  cases hb : cfg0.idle 4 (grid0.coords t)
  · rfl
  · exfalso; have := (idleAt0_4 t).mp hb; omega
theorem noFlush0_4 (t : Fin cfg0.N) (h : ¬ t.val % 64 = 63) : (cfg0.win 4).flush t = false := by
  cases hb : (cfg0.win 4).flush t
  · rfl
  · exact absurd ((flush0_4 t).mp hb) h

/-- The column-sum window's buffer still holds the zeros of the row's first step at every later step of the row: the
    steps between store nothing into it and nothing writes it back before the row's last step. -/
theorem before0_4 (c : Dev nD) (d) : ∀ (n : ℕ) (t : Fin cfg0.N), t.val = n → ¬ t.val % 64 = 0 → (dat0 V c).before 4 t d = Z4 (F := F)
  | 0, t, h0, h => absurd (by rw [h0]) h
  | n + 1, t, hn, h => by
    have ht : t.val ≠ 0 := by omega
    rw [(dat0 V c).before_of_pos 4 t ht ((cfg0.win 4).fetch_out rfl t) d]
    have hN : t.val < 128 := lt_of_lt_of_eq t.isLt (show cfg0.N = 128 from N_0)
    rw [noFlush0_4 ⟨t.val - 1, Nat.lt_of_le_of_lt (Nat.sub_le _ _) t.isLt⟩ (by dsimp only; omega), if_neg Bool.false_ne_true]
    unfold Dat.left
    by_cases h0 : (t.val - 1) % 64 = 0
    · rw [idleAt0_4_false ⟨t.val - 1, Nat.lt_of_le_of_lt (Nat.sub_le _ _) t.isLt⟩ (Or.inl h0)]
      dsimp only
      unfold Dat.kept
      rw [Pipeline.fill_of_clip_none 4 _ (fun _ => rfl) d ((dat0 V c).after 4 _), Window.fill_cut, after0_4]
      unfold out4
      rw [if_neg (by dsimp only; omega)]
    · rw [idleAt0_4_true ⟨t.val - 1, Nat.lt_of_le_of_lt (Nat.sub_le _ _) t.isLt⟩ h0 (by dsimp only; omega)]
      exact before0_4 c d n ⟨t.val - 1, Nat.lt_of_le_of_lt (Nat.sub_le _ _) t.isLt⟩ (by dsimp only; omega) h0

/-! # The second pipeline -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Regions

end Cert.Kernel.Fr

end
-- ==== Proof.KObl.lean ====
/-
  Each pipeline's body obligation: at every step the body, called on the step's current staging buffers holding what the
  proof data say they hold, runs to the next step's invariant with every buffer at what the proof data say it leaves.
  For the first pipeline by cases on the step's place in its core's row (first, middle, last).
-/
import proofs.«115045_j25494925869839_2_alg».proof.Proof.Gen.Kernel.Launch
import proofs.«115045_j25494925869839_2_alg».proof.Proof.Gen.Kernel.Skeleton
import proofs.«115045_j25494925869839_2_alg».proof.Proof.Gen.Kernel.Points
import proofs.«115045_j25494925869839_2_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first pipeline -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  unfold qblk0
  by_cases h0 : t.val % 64 = 0
  · have hc1 : k0_cond1 (grid0.coords t) = 1#1 := (hcond1 t).mpr h0
    have hc2 : ¬ k0_cond2 (grid0.coords t) = 1#1 := fun h => by have := (hcond2 t).mp h; omega
    rw [show (dat0 V c).leavesExact 4 t = owns (c : Thread nD τ) (st0_4 t) fullShare ((dat0 V c).after 4 t) from by
      unfold Dat.leavesExact; rw [idleAt0_4_false t (Or.inl h0)], after0_4]
    rw [show out4 V c t = Z4 (F := F) from if_neg (by omega)]
    rw [accAt_first V c t h0]
    unfold part0
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ hc1 hc2 (iblk0 V c 0 t) (iblk0 V c 1 t) (iblk0 V c 2 t) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ hc1 hc2 (iblk0 V c 0 t) (iblk0 V c 1 t) (iblk0 V c 2 t) _)
      isplitl [H0]; · iexact H0
      isplitl [H1]; · iexact H1
      isplitl [H2]; · iexact H2
      isplitl [H3]; · iexists _; iexact H3
      isplitl [H4]; · iexists _; iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
  · have hc1 : ¬ k0_cond1 (grid0.coords t) = 1#1 := fun h => h0 ((hcond1 t).mp h)
    have hz : t.val ≠ 0 := fun h => h0 (by rw [h])
    rw [accAt_next V c t h0]
    unfold part0
    rw [PhiS_castSucc V c t, PhiS_pos V c _ _ hz]
    by_cases h1 : t.val % 64 = 63
    · have hc2 : k0_cond2 (grid0.coords t) = 1#1 := (hcond2 t).mpr h1
      rw [show (dat0 V c).leavesExact 4 t = owns (c : Thread nD τ) (st0_4 t) fullShare ((dat0 V c).after 4 t) from by
        unfold Dat.leavesExact; rw [idleAt0_4_false t (Or.inr h1)], after0_4]
      rw [show out4 V c t = rowUpd (Z4 (F := F)) (accAt V c t.val t.isLt) from if_pos h1]
      rw [accAt_next V c t h0]
      unfold part0
      have hb4 : ∀ d, (dat0 V c).before 4 t d = Z4 (F := F) := fun d => before0_4 V c d t.val t rfl h0
      simp only [hb4]
      iintro ⟨⟨⟨HS, Hr⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ hc1 hc2 (iblk0 V c 0 t) (iblk0 V c 1 t) (iblk0 V c 2 t) (Z4 (F := F)) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · have hc2 : ¬ k0_cond2 (grid0.coords t) = 1#1 := fun h => h1 ((hcond2 t).mp h)
      rw [Dat.leavesExact_idle (dat0 V c) 4 t (idleAt0_4_true t h0 h1) (noFlush0_4 t h1)]
      iintro ⟨⟨⟨HS, Hr⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ hc1 hc2 (iblk0 V c 0 t) (iblk0 V c 1 t) (iblk0 V c 2 t) ((dat0 V c).before 4 t d4) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists d4; iexact H4

/-- The library's body obligation, at every step. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first step. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last step the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

/-! # The second pipeline -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every step. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.KRun.lean ====
/-
  The program's run: the host operations before the first pipeline, the first pipeline, the host operations between the
  two, the second pipeline — from the launch memory to the return, with every unscoped buffer's final contents named:
  each pipeline's arrays at what its write-backs leave, every other buffer as the host operations leave it.
-/
import proofs.«115045_j25494925869839_2_alg».proof.Proof.Gen.Kernel.Launch
import proofs.«115045_j25494925869839_2_alg».proof.Proof.Gen.Kernel.Skeleton
import proofs.«115045_j25494925869839_2_alg».proof.Proof.Gen.Kernel.Points
import proofs.«115045_j25494925869839_2_alg».proof.Proof.KObl
import proofs.«115045_j25494925869839_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the first pipeline. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pipeline: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations between the pipelines. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pipeline. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host operation of the first stretch writes passes through it. -/
theorem W1_of (c : Dev nD) (r : Ref sig .tc) (h : r ∉ hostOps0_W) : W1 m ρ c r = W0 m ρ c r :=
  StableHlo.after_of_writes_sub hostOps0 _ hostOps0_writes h
/-- A buffer no host operation of the second stretch writes passes through it. -/
theorem W3_of (c : Dev nD) (r : Ref sig .tc) (h : r ∉ hostOps1_W) : W3 m ρ c r = W2 m ρ c r :=
  StableHlo.after_of_writes_sub hostOps1 _ hostOps1_writes h

/-- The two arguments end as launched: no host operation writes one and each pipeline only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two pipelines as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m ρ) c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.Kernel.Fr

end
-- ==== Proof.KIBody1.lean ====
/-
  The second kernel's body on whole staging buffers: it loads the block of soft assignments and the row of column sums,
  and stores into its output buffer the sharpened, row-normalised block, a pure function of the two loads.
-/
import proofs.«115045_j25494925869839_2_alg».proof.Proof.Gen.KernelIdeal.Launch
import proofs.«115045_j25494925869839_2_alg».proof.Proof.Gen.KernelIdeal.Skeleton
import proofs.«115045_j25494925869839_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, however spelt. -/
theorem hz2 : (![0, 0] : Fin 2 → ℕ) = fun _ => 0 := by
  funext a; match a with | ⟨0, _⟩ => rfl | ⟨1, _⟩ => rfl

set_option maxHeartbeats 1000000 in
/-- The body on whole staging buffers, the two inputs at contents `x1`, `x2` and the output at anything: it runs to
    the continuation with the inputs as they were and the output at the payload of the two inputs. -/
theorem sound_kernel1 (c : Dev nD) (E : Set ℕ) (i : grid1.Coords)
    (arg1 : Memref sig .tc .vmem S8192x64 .f32) (harg1 : arg1.IsWhole)
    (arg2 : Memref sig .tc .vmem S1x64 .f32) (harg2 : arg2.IsWhole)
    (arg3 : Memref sig .tc .vmem S8192x64 .f32) (harg3 : arg3.IsWhole)
    (x1 : Vec F S8192x64 .f32) (x2 : Vec F S1x64 .f32) (K : PUnit → sProp 𝕄) :
    iprop(owns (c : Thread nD τ) arg1 fullShare x1 ∗ owns (c : Thread nD τ) arg2 fullShare x2 ∗ (∃ d, owns (c : Thread nD τ) arg3 fullShare d)
        ∗ (iprop(owns (c : Thread nD τ) arg1 fullShare x1 ∗ owns (c : Thread nD τ) arg2 fullShare x2
            ∗ owns (c : Thread nD τ) arg3 fullShare (k1_pay1 x1 x2)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz2 inb_S8192x64_S8192x64_0_0 y⟩),
    View.canon_unit_zero hz2]
  simp only [View.readAt_eq_ld, View.ld_unit_zero (S := S8192x64) hz2, View.ld_unit_zero (S := S1x64) hz2]

end Cert.KernelIdeal.Fr

end
-- ==== Proof.KIBody0.lean ====
/-
  The first kernel's body on whole staging buffers, in each of the three cases the grid meets: the first step of a core's
  row of the grid (the accumulator and the column-sum block are zeroed first), a middle step, and the last step (row 0 of
  the column-sum block takes the accumulator). In every case the block of soft assignments is stored whole and the
  accumulator takes its old contents plus the block's column sums.
-/
import proofs.«115045_j25494925869839_2_alg».proof.Proof.Gen.KernelIdeal.Launch
import proofs.«115045_j25494925869839_2_alg».proof.Proof.Gen.KernelIdeal.Skeleton
import proofs.«115045_j25494925869839_2_alg».proof.Proof.Gen.KernelIdeal.Points
import proofs.«115045_j25494925869839_2_alg».proof.Proof.KIBody1
import Idealize.ShloMosaic.Lib.Pipeline.FrameBody
import Idealize.ShloMosaic.Lib.ValueIdx
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Row 0 of an 8-row block replaced by a one-row block, the other rows kept. -/
def rowUpd (x6 : Vec F S8x64 .f32) (a : Vec F S1x64 .f32) : Vec F S8x64 .f32 :=
  fun j => if (j 0).val < 1 then a (ValueIdx.ix2 (n0 := 1) (n1 := 64) 0 (j 1)) else x6 j

set_option maxHeartbeats 2000000 in
/-- The first step of a core's row of the grid: the accumulator and the column-sum block are zeroed, then the
    accumulator takes zero plus the block's column sums. -/
theorem sound_kernel0_A (c : Dev nD) (E : Set ℕ) (i : grid0.Coords)
    (arg2 : Memref sig .tc .vmem S8192x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S8192x64 .f32) (harg5 : arg5.IsWhole)
    (arg6 : Memref sig .tc .vmem S8x64 .f32) (harg6 : arg6.IsWhole)
    (arg7 : Memref sig .tc .vmem S1x64 .f32) (harg7 : arg7.IsWhole)
    (hc1 : k0_cond1 i = 1#1) (hc2 : ¬ k0_cond2 i = 1#1)
    (x2 : Vec F S8192x64 .f32) (x3 : Vec F S64x64 .f32) (x4 : Vec F S1x64 .f32) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x2 x3 x4)
            ∗ owns (c : Thread nD τ) arg6 fullShare (k0_pay3 (F := F))
            ∗ owns (c : Thread nD τ) arg7 fullShare (k0_pay1 (k0_pay5 x2 x3 x4) (k0_pay2 (F := F)))) -∗ K ⟨⟩))
      ⊢ wp frame (wpE (defs₀ (F := F)) Variants.none c none) E (cc0__kernel_a i arg2 harg2 arg3 harg3 arg4 harg4 arg5 harg5 arg6 harg6 arg7 harg7) K := by
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2; subst hf3; subst hf4
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S8192x64_S8192x64_0_0 y⟩),
      View.canon_unit_zero hz2]
    simp only [View.readAt_eq_ld, View.ld_unit_zero (S := S8192x64) hz2, View.ld_unit_zero (S := S64x64) hz2, View.ld_unit_zero (S := S1x64) hz2]
  isplitl [H6]
  · iexists _; isplitr
    swap; · iexact H6
    ipureintro
    rw [View.read_writes_eq_canon _ _ _ (fun y => ⟨_, List.mem_singleton_self _, View.mem_set_unit_zero hz2 inb_S8x64_S8x64_0_0 y⟩),
      View.canon_unit_zero hz2]
  iexists _; isplitr
  swap; · iexact H7
  ipureintro
  rw [View.read_writes_eq_canon _ _ _ (fun y => ⟨_, List.mem_cons_self, View.mem_set_unit_zero hz2 inb_S1x64_S1x64_0_0 y⟩),
    View.canon_cons_unit_zero hz2]
  sl_unfold_run_names
  rw [View.readCov_unit_zero _ hz2]
  simp only [View.readAt_eq_ld, View.ld_unit_zero (S := S8192x64) hz2, View.ld_unit_zero (S := S64x64) hz2, View.ld_unit_zero (S := S1x64) hz2]

set_option maxHeartbeats 2000000 in
/-- A middle step: the column-sum block is handed back untouched, the accumulator takes its old contents plus the
    block's column sums. -/
theorem sound_kernel0_B (c : Dev nD) (E : Set ℕ) (i : grid0.Coords)
    (arg2 : Memref sig .tc .vmem S8192x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S8192x64 .f32) (harg5 : arg5.IsWhole)
    (arg6 : Memref sig .tc .vmem S8x64 .f32) (harg6 : arg6.IsWhole)
    (arg7 : Memref sig .tc .vmem S1x64 .f32) (harg7 : arg7.IsWhole)
    (hc1 : ¬ k0_cond1 i = 1#1) (hc2 : ¬ k0_cond2 i = 1#1)
    (x2 : Vec F S8192x64 .f32) (x3 : Vec F S64x64 .f32) (x4 : Vec F S1x64 .f32) (x6 : Vec F S8x64 .f32) (xs : Vec F S1x64 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare x6 ∗ owns (c : Thread nD τ) arg7 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x2 x3 x4)
            ∗ owns (c : Thread nD τ) arg6 fullShare x6
            ∗ owns (c : Thread nD τ) arg7 fullShare (k0_pay1 (k0_pay5 x2 x3 x4) xs)) -∗ K ⟨⟩))
      ⊢ wp frame (wpE (defs₀ (F := F)) Variants.none c none) E (cc0__kernel_a i arg2 harg2 arg3 harg3 arg4 harg4 arg5 harg5 arg6 harg6 arg7 harg7) K := by
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2; subst hf3; subst hf4; subst hf6; subst hf7
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S8192x64_S8192x64_0_0 y⟩),
      View.canon_unit_zero hz2]
    simp only [View.readAt_eq_ld, View.ld_unit_zero (S := S8192x64) hz2, View.ld_unit_zero (S := S64x64) hz2, View.ld_unit_zero (S := S1x64) hz2]
  isplitl [H6]
  · iexists f6; isplitr; · ipureintro; rfl
    iexact H6
  iexists _; isplitr
  swap; · iexact H7
  ipureintro
  rw [View.read_writes_eq_canon _ _ _ (fun y => ⟨_, List.mem_singleton_self _, View.mem_set_unit_zero hz2 inb_S1x64_S1x64_0_0 y⟩),
    View.canon_unit_zero hz2]
  try sl_unfold_run_names
  simp only [View.readAt_eq_ld, View.ld_unit_zero (S := S8192x64) hz2, View.ld_unit_zero (S := S64x64) hz2, View.ld_unit_zero (S := S1x64) hz2]

set_option maxHeartbeats 2000000 in
/-- The last step of a core's row of the grid: as a middle step, and then row 0 of the column-sum block takes the
    accumulator's new contents, the other rows kept. -/
theorem sound_kernel0_C (c : Dev nD) (E : Set ℕ) (i : grid0.Coords)
    (arg2 : Memref sig .tc .vmem S8192x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S8192x64 .f32) (harg5 : arg5.IsWhole)
    (arg6 : Memref sig .tc .vmem S8x64 .f32) (harg6 : arg6.IsWhole)
    (arg7 : Memref sig .tc .vmem S1x64 .f32) (harg7 : arg7.IsWhole)
    (hc1 : ¬ k0_cond1 i = 1#1) (hc2 : k0_cond2 i = 1#1)
    (x2 : Vec F S8192x64 .f32) (x3 : Vec F S64x64 .f32) (x4 : Vec F S1x64 .f32) (x6 : Vec F S8x64 .f32) (xs : Vec F S1x64 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare x6 ∗ owns (c : Thread nD τ) arg7 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x2 x3 x4)
            ∗ owns (c : Thread nD τ) arg6 fullShare (rowUpd x6 (k0_pay1 (k0_pay5 x2 x3 x4) xs))
            ∗ owns (c : Thread nD τ) arg7 fullShare (k0_pay1 (k0_pay5 x2 x3 x4) xs)) -∗ K ⟨⟩))
      ⊢ wp frame (wpE (defs₀ (F := F)) Variants.none c none) E (cc0__kernel_a i arg2 harg2 arg3 harg3 arg4 harg4 arg5 harg5 arg6 harg6 arg7 harg7) K := by
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2; subst hf3; subst hf4; subst hf6; subst hf7
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S8192x64_S8192x64_0_0 y⟩),
      View.canon_unit_zero hz2]
    simp only [View.readAt_eq_ld, View.ld_unit_zero (S := S8192x64) hz2, View.ld_unit_zero (S := S64x64) hz2, View.ld_unit_zero (S := S1x64) hz2]
  isplitl [H6]
  · iexists _; isplitr
    swap; · iexact H6
    ipureintro
    try sl_unfold_run_names
    rw [View.readCov_unit_zero _ hz2]
    simp only [View.readAt_eq_ld, View.ld_unit_zero (S := S8192x64) hz2, View.ld_unit_zero (S := S64x64) hz2, View.ld_unit_zero (S := S1x64) hz2]
    funext y
    unfold rowUpd
    by_cases h : (y 0).val < 1
    · rw [if_pos h]
      exact View.read_writes_cons_rows_of_mem (o := 0) arg6.view f6 inb_S8x64_S1x64_0_0 _ [] y (ValueIdx.ix2 (n0 := 1) (n1 := 64) 0 (y 1)) rfl
        (by have h' : (y 0).val = 0 := by omega
            exact h'.trans rfl) rfl
    · rw [if_neg h]
      exact (View.read_writes_cons_rows_of_not_mem (o := 0) (W := 1) arg6.view f6 inb_S8x64_S1x64_0_0 _ [] y rfl rfl
        (Or.inr (by omega))).trans (by rw [View.writes_nil])
  iexists _; isplitr
  swap; · iexact H7
  ipureintro
  try sl_unfold_run_names
  rw [View.read_writes_eq_canon _ _ _ (fun y => ⟨_, List.mem_singleton_self _, View.mem_set_unit_zero hz2 inb_S1x64_S1x64_0_0 y⟩),
    View.canon_unit_zero hz2]
  simp only [View.readAt_eq_ld, View.ld_unit_zero (S := S8192x64) hz2, View.ld_unit_zero (S := S64x64) hz2, View.ld_unit_zero (S := S1x64) hz2]

end Cert.KernelIdeal.Fr

end
-- ==== Proof.KIData.lean ====
/-
  The proof data of the two pipelines, at the buffer contents `V` a region is entered with, and each body's obligation.

  First pipeline (a grid of 2 × 64 steps, each core's 64 steps in a row): at step `t` the block of soft assignments is the
  payload of the step's three input blocks; the accumulator after step `t` is the running total of the blocks' column sums
  since the row's first step; the column-sum block holds zeros until the row's last step, where its row 0 takes the total.
  Second pipeline (128 steps): the output block is the payload of the step's two input blocks.
-/
import proofs.«115045_j25494925869839_2_alg».proof.Proof.Gen.KernelIdeal.Launch
import proofs.«115045_j25494925869839_2_alg».proof.Proof.Gen.KernelIdeal.Skeleton
import proofs.«115045_j25494925869839_2_alg».proof.Proof.Gen.KernelIdeal.Points
import proofs.«115045_j25494925869839_2_alg».proof.Proof.KIBody0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first pipeline -/

/-- Window `w`'s block at step `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every step, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The block of soft assignments step `t` stores, and its column sums. -/
def qblk0 (c : Dev nD) (t : Fin cfg0.N) : Vec F S8192x64 .f32 := k0_pay4 (iblk0 V c 0 t) (iblk0 V c 1 t) (iblk0 V c 2 t)
def part0 (c : Dev nD) (t : Fin cfg0.N) : Vec F S1x64 .f32 := k0_pay5 (iblk0 V c 0 t) (iblk0 V c 1 t) (iblk0 V c 2 t)

/-- THE ACCUMULATOR after step `n`: at a row's first step zero plus the step's column sums, afterwards what the step
    before left plus the step's column sums. -/
def accAt (c : Dev nD) : (n : ℕ) → n < cfg0.N → Vec F S1x64 .f32
  | 0, hn => k0_pay1 (part0 V c ⟨0, hn⟩) (k0_pay2 (F := F))
  | n + 1, hn =>
    if (n + 1) % 64 = 0 then k0_pay1 (part0 V c ⟨n + 1, hn⟩) (k0_pay2 (F := F))
    else k0_pay1 (part0 V c ⟨n + 1, hn⟩) (accAt c n (Nat.lt_of_succ_lt hn))

theorem accAt_first (c : Dev nD) (t : Fin cfg0.N) (h : t.val % 64 = 0) :
    accAt V c t.val t.isLt = k0_pay1 (part0 V c t) (k0_pay2 (F := F)) := by
  obtain ⟨n, hn⟩ := t
  cases n with
  | zero => rfl
  | succ n => exact (if_pos h).trans rfl

theorem accAt_next (c : Dev nD) (t : Fin cfg0.N) (h : ¬ t.val % 64 = 0) :
    accAt V c t.val t.isLt = k0_pay1 (part0 V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The column-sum block of zeros, and what the block holds after step `t`: zeros, but at a row's last step row 0 is
    the accumulator. -/
abbrev Z4 : Vec F S8x64 .f32 := k0_pay3 (F := F)
def out4 (c : Dev nD) (t : Fin cfg0.N) : Vec F S8x64 .f32 :=
  if t.val % 64 = 63 then rowUpd (Z4 (F := F)) (accAt V c t.val t.isLt) else Z4

/-- The scratch operand: a whole scoped buffer of the kernel's own. -/
abbrev scM0 : Memref sig .tc .vmem S1x64 .f32 := Memref.whole cc0_scratch0

/-- The scoped buffers of the core that are neither this pipeline's staging buffers nor its scratch, each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

/-- The region invariant before step `n`: before the first step the class's; afterwards the scratch at the accumulator
    the step before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (accAt V c n hn) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare (accAt V c (n - 1) (by omega)) ∗ restS (F := F) c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qblk0 V c t
    | ⟨4, _⟩ => out4 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = qblk0 V c t := by dsimp only [dat0]
theorem after0_4 (c : Dev nD) (t : Fin cfg0.N) : (dat0 V c).after 4 t = out4 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's two conditions and the column-sum window's idle steps, decided over the grid -/

theorem hcond1 : ∀ t : Fin cfg0.N, k0_cond1 (grid0.coords t) = 1#1 ↔ t.val % 64 = 0 :=
  (by decide +kernel : ∀ t : Fin grid0.N, k0_cond1 (grid0.coords t) = 1#1 ↔ t.val % 64 = 0)
theorem hcond2 : ∀ t : Fin cfg0.N, k0_cond2 (grid0.coords t) = 1#1 ↔ t.val % 64 = 63 :=
  (by decide +kernel : ∀ t : Fin grid0.N, k0_cond2 (grid0.coords t) = 1#1 ↔ t.val % 64 = 63)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem idleAt0_4 : ∀ t : Fin cfg0.N, cfg0.idle 4 (grid0.coords t) = true ↔ (¬ t.val % 64 = 0 ∧ ¬ t.val % 64 = 63) :=
  (by decide +kernel : ∀ t : Fin grid0.N, idle0 4 (grid0.coords t) = true ↔ (¬ t.val % 64 = 0 ∧ ¬ t.val % 64 = 63))
theorem idleAt0_4_true (t : Fin cfg0.N) (h0 : ¬ t.val % 64 = 0) (h1 : ¬ t.val % 64 = 63) : cfg0.idle 4 (grid0.coords t) = true :=
  (idleAt0_4 t).mpr ⟨h0, h1⟩
theorem idleAt0_4_false (t : Fin cfg0.N) (h : t.val % 64 = 0 ∨ t.val % 64 = 63) : cfg0.idle 4 (grid0.coords t) = false := by
  cases hb : cfg0.idle 4 (grid0.coords t)
  · rfl
  · exfalso; have := (idleAt0_4 t).mp hb; omega
theorem noFlush0_4 (t : Fin cfg0.N) (h : ¬ t.val % 64 = 63) : (cfg0.win 4).flush t = false := by
  cases hb : (cfg0.win 4).flush t
  · rfl
  · exact absurd ((flush0_4 t).mp hb) h

/-- The column-sum window's buffer still holds the zeros of the row's first step at every later step of the row: the
    steps between store nothing into it and nothing writes it back before the row's last step. -/
theorem before0_4 (c : Dev nD) (d) : ∀ (n : ℕ) (t : Fin cfg0.N), t.val = n → ¬ t.val % 64 = 0 → (dat0 V c).before 4 t d = Z4 (F := F)
  | 0, t, h0, h => absurd (by rw [h0]) h
  | n + 1, t, hn, h => by
    have ht : t.val ≠ 0 := by omega
    rw [(dat0 V c).before_of_pos 4 t ht ((cfg0.win 4).fetch_out rfl t) d]
    have hN : t.val < 128 := lt_of_lt_of_eq t.isLt (show cfg0.N = 128 from N_0)
    rw [noFlush0_4 ⟨t.val - 1, Nat.lt_of_le_of_lt (Nat.sub_le _ _) t.isLt⟩ (by dsimp only; omega), if_neg Bool.false_ne_true]
    unfold Dat.left
    by_cases h0 : (t.val - 1) % 64 = 0
    · rw [idleAt0_4_false ⟨t.val - 1, Nat.lt_of_le_of_lt (Nat.sub_le _ _) t.isLt⟩ (Or.inl h0)]
      dsimp only
      unfold Dat.kept
      rw [Pipeline.fill_of_clip_none 4 _ (fun _ => rfl) d ((dat0 V c).after 4 _), Window.fill_cut, after0_4]
      unfold out4
      rw [if_neg (by dsimp only; omega)]
    · rw [idleAt0_4_true ⟨t.val - 1, Nat.lt_of_le_of_lt (Nat.sub_le _ _) t.isLt⟩ h0 (by dsimp only; omega)]
      exact before0_4 c d n ⟨t.val - 1, Nat.lt_of_le_of_lt (Nat.sub_le _ _) t.isLt⟩ (by dsimp only; omega) h0

/-! # The second pipeline -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Regions

end Cert.KernelIdeal.Fr

end
-- ==== Proof.KIObl.lean ====
/-
  Each pipeline's body obligation: at every step the body, called on the step's current staging buffers holding what the
  proof data say they hold, runs to the next step's invariant with every buffer at what the proof data say it leaves.
  For the first pipeline by cases on the step's place in its core's row (first, middle, last).
-/
import proofs.«115045_j25494925869839_2_alg».proof.Proof.Gen.KernelIdeal.Launch
import proofs.«115045_j25494925869839_2_alg».proof.Proof.Gen.KernelIdeal.Skeleton
import proofs.«115045_j25494925869839_2_alg».proof.Proof.Gen.KernelIdeal.Points
import proofs.«115045_j25494925869839_2_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first pipeline -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  unfold qblk0
  by_cases h0 : t.val % 64 = 0
  · have hc1 : k0_cond1 (grid0.coords t) = 1#1 := (hcond1 t).mpr h0
    have hc2 : ¬ k0_cond2 (grid0.coords t) = 1#1 := fun h => by have := (hcond2 t).mp h; omega
    rw [show (dat0 V c).leavesExact 4 t = owns (c : Thread nD τ) (st0_4 t) fullShare ((dat0 V c).after 4 t) from by
      unfold Dat.leavesExact; rw [idleAt0_4_false t (Or.inl h0)], after0_4]
    rw [show out4 V c t = Z4 (F := F) from if_neg (by omega)]
    rw [accAt_first V c t h0]
    unfold part0
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ hc1 hc2 (iblk0 V c 0 t) (iblk0 V c 1 t) (iblk0 V c 2 t) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ hc1 hc2 (iblk0 V c 0 t) (iblk0 V c 1 t) (iblk0 V c 2 t) _)
      isplitl [H0]; · iexact H0
      isplitl [H1]; · iexact H1
      isplitl [H2]; · iexact H2
      isplitl [H3]; · iexists _; iexact H3
      isplitl [H4]; · iexists _; iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
  · have hc1 : ¬ k0_cond1 (grid0.coords t) = 1#1 := fun h => h0 ((hcond1 t).mp h)
    have hz : t.val ≠ 0 := fun h => h0 (by rw [h])
    rw [accAt_next V c t h0]
    unfold part0
    rw [PhiS_castSucc V c t, PhiS_pos V c _ _ hz]
    by_cases h1 : t.val % 64 = 63
    · have hc2 : k0_cond2 (grid0.coords t) = 1#1 := (hcond2 t).mpr h1
      rw [show (dat0 V c).leavesExact 4 t = owns (c : Thread nD τ) (st0_4 t) fullShare ((dat0 V c).after 4 t) from by
        unfold Dat.leavesExact; rw [idleAt0_4_false t (Or.inr h1)], after0_4]
      rw [show out4 V c t = rowUpd (Z4 (F := F)) (accAt V c t.val t.isLt) from if_pos h1]
      rw [accAt_next V c t h0]
      unfold part0
      have hb4 : ∀ d, (dat0 V c).before 4 t d = Z4 (F := F) := fun d => before0_4 V c d t.val t rfl h0
      simp only [hb4]
      iintro ⟨⟨⟨HS, Hr⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ hc1 hc2 (iblk0 V c 0 t) (iblk0 V c 1 t) (iblk0 V c 2 t) (Z4 (F := F)) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · have hc2 : ¬ k0_cond2 (grid0.coords t) = 1#1 := fun h => h1 ((hcond2 t).mp h)
      rw [Dat.leavesExact_idle (dat0 V c) 4 t (idleAt0_4_true t h0 h1) (noFlush0_4 t h1)]
      iintro ⟨⟨⟨HS, Hr⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ hc1 hc2 (iblk0 V c 0 t) (iblk0 V c 1 t) (iblk0 V c 2 t) ((dat0 V c).before 4 t d4) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists d4; iexact H4

/-- The library's body obligation, at every step. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first step. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last step the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

/-! # The second pipeline -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every step. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KIRun.lean ====
/-
  The program's run: the host operations before the first pipeline, the first pipeline, the host operations between the
  two, the second pipeline — from the launch memory to the return, with every unscoped buffer's final contents named:
  each pipeline's arrays at what its write-backs leave, every other buffer as the host operations leave it.
-/
import proofs.«115045_j25494925869839_2_alg».proof.Proof.Gen.KernelIdeal.Launch
import proofs.«115045_j25494925869839_2_alg».proof.Proof.Gen.KernelIdeal.Skeleton
import proofs.«115045_j25494925869839_2_alg».proof.Proof.Gen.KernelIdeal.Points
import proofs.«115045_j25494925869839_2_alg».proof.Proof.KIObl
import proofs.«115045_j25494925869839_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the first pipeline. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pipeline: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations between the pipelines. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pipeline. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host operation of the first stretch writes passes through it. -/
theorem W1_of (c : Dev nD) (r : Ref sig .tc) (h : r ∉ hostOps0_W) : W1 m ρ c r = W0 m ρ c r :=
  StableHlo.after_of_writes_sub hostOps0 _ hostOps0_writes h
/-- A buffer no host operation of the second stretch writes passes through it. -/
theorem W3_of (c : Dev nD) (r : Ref sig .tc) (h : r ∉ hostOps1_W) : W3 m ρ c r = W2 m ρ c r :=
  StableHlo.after_of_writes_sub hostOps1 _ hostOps1_writes h

/-- The two arguments end as launched: no host operation writes one and each pipeline only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two pipelines as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m ρ) c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.KernelIdeal.Fr

end
-- ==== Proof.Spec.lean ====
/-
  The two results as functions of the argument arrays, on the extended reals.

  For a row `z_b` (64 entries) and the 64 centroids `c_k`:
    d2(b,k)  = (‖z_b‖² + ‖c_k‖²) − 2·⟨z_b, c_k⟩,   s(b,k) = √(max(d2(b,k), 0)),
    q0(b,k)  = 1 / (1 + s(b,k)/1)                       (the Student-t kernel with one degree of freedom),
    Q(b,k)   = q0(b,k) / Σ_k' q0(b,k')                   (each row normalised),
    col(k)   = Σ_b Q(b,k)                                (the column sums over all rows),
    p0(b,k)  = Q(b,k)·Q(b,k) / col(k),
    P(b,k)   = p0(b,k) / Σ_k' p0(b,k')                   (each row normalised again).
  The float words 0.0, 1.0 and 2.0 are kept as words: both programs carry the same ones.
-/
import Idealize.ShloMosaic.PureOps.Ideal
import Idealize.ShloMosaic.Lib.ValueIdx

noncomputable section

namespace Cert.Spec

open Idealize.ShloMosaic Idealize.ShloMosaic.ValueIdx

/-- The words of 0.0, 1.0 and 2.0 at the ideal values. -/
abbrev w0 : EReal := Ideal.ofBits .f32 0x00000000#32
abbrev w1 : EReal := Ideal.ofBits .f32 0x3F800000#32
abbrev w2 : EReal := Ideal.ofBits .f32 0x40000000#32

/-- The squared norm of centroid `k`. -/
def cnorm (cen : (⟨2, ![64, 64]⟩ : Shape).Idx → EReal) (k : Fin 64) : EReal :=
  ∑ h : Fin 64, cen (ix2 k h) * cen (ix2 k h)

/-- The unnormalised soft assignment of one row `zr` to centroid `k`, the centroids' squared norms given as `c2`. -/
def qraw (zr : Fin 64 → EReal) (cen : (⟨2, ![64, 64]⟩ : Shape).Idx → EReal) (c2 : Fin 64 → EReal) (k : Fin 64) : EReal :=
  Ideal.div w1 (w1 + Ideal.div (Ideal.sqrt (max (((∑ h : Fin 64, zr h * zr h) + c2 k) - w2 * ∑ h : Fin 64, zr h * cen (ix2 k h)) w0)) w1)

/-- The soft assignment of one row, normalised over the centroids. -/
def qrow (zr : Fin 64 → EReal) (cen : (⟨2, ![64, 64]⟩ : Shape).Idx → EReal) (c2 : Fin 64 → EReal) (k : Fin 64) : EReal :=
  Ideal.div (qraw zr cen c2 k) (∑ k' : Fin 64, qraw zr cen c2 k')

/-- The first result at row `b`, centroid `k`. -/
def Qat (z : (⟨2, ![1048576, 64]⟩ : Shape).Idx → EReal) (cen : (⟨2, ![64, 64]⟩ : Shape).Idx → EReal) (b : Fin 1048576) (k : Fin 64) : EReal :=
  qrow (fun h => z (ix2 b h)) cen (cnorm cen) k

/-- The first result, the soft assignments. -/
def Q (z : (⟨2, ![1048576, 64]⟩ : Shape).Idx → EReal) (cen : (⟨2, ![64, 64]⟩ : Shape).Idx → EReal) :
    (⟨2, ![1048576, 64]⟩ : Shape).Idx → EReal :=
  fun i => Qat z cen (i 0) (i 1)

/-- The sum of column `k` of a matrix of 1048576 rows. -/
def colsum (q : (⟨2, ![1048576, 64]⟩ : Shape).Idx → EReal) (k : Fin 64) : EReal :=
  ∑ b : Fin 1048576, q (ix2 b k)

/-- One row `qr` of soft assignments squared and divided by the column sums `cs`. -/
def praw (qr : Fin 64 → EReal) (cs : Fin 64 → EReal) (k : Fin 64) : EReal :=
  Ideal.div (qr k * qr k) (cs k)

/-- The sharpened row, normalised over the centroids. -/
def prow (qr : Fin 64 → EReal) (cs : Fin 64 → EReal) (k : Fin 64) : EReal :=
  Ideal.div (praw qr cs k) (∑ k' : Fin 64, praw qr cs k')

/-- The second result at row `b`, centroid `k`. -/
def Pat (z : (⟨2, ![1048576, 64]⟩ : Shape).Idx → EReal) (cen : (⟨2, ![64, 64]⟩ : Shape).Idx → EReal) (b : Fin 1048576) (k : Fin 64) : EReal :=
  prow (fun k' => Q z cen (ix2 b k')) (colsum (Q z cen)) k

/-- The second result, the target distribution. -/
def P (z : (⟨2, ![1048576, 64]⟩ : Shape).Idx → EReal) (cen : (⟨2, ![64, 64]⟩ : Shape).Idx → EReal) :
    (⟨2, ![1048576, 64]⟩ : Shape).Idx → EReal :=
  fun i => Pat z cen (i 0) (i 1)

theorem Q_ix2 (z : (⟨2, ![1048576, 64]⟩ : Shape).Idx → EReal) (cen : (⟨2, ![64, 64]⟩ : Shape).Idx → EReal) (b : Fin 1048576) (k : Fin 64) :
    Q z cen (ix2 b k) = Qat z cen b k := rfl

theorem P_ix2 (z : (⟨2, ![1048576, 64]⟩ : Shape).Idx → EReal) (cen : (⟨2, ![64, 64]⟩ : Shape).Idx → EReal) (b : Fin 1048576) (k : Fin 64) :
    P z cen (ix2 b k) = Pat z cen b k := rfl

end Cert.Spec

end
-- ==== Proof.PayIdeal.lean ====
/-
  The kernel's payloads read at an index, at the ideal values, as the specification's row functions.
-/
import proofs.«115045_j25494925869839_2_alg».proof.Proof.Gen.KernelIdeal.Skeleton
import proofs.«115045_j25494925869839_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx Cert.KernelIdeal Cert.KernelIdeal.Gen

/-- The accumulated column sums: the stored row plus the new partial row. -/
theorem pay1_apply (v35 : FVec Ideal S1x64 .f32) (v36 : Vec Ideal S1x64 .f32) (k : Fin 64) :
    k0_pay1 (F := Ideal) v35 v36 (ix2 (0 : Fin 1) k) = v36 (ix2 (0 : Fin 1) k) + v35 (ix2 (0 : Fin 1) k) := by
  unfold k0_pay1
  rw [shapeCast_self]
  rfl

/-- The initial row of column sums is zero. -/
theorem pay2_apply (k : Fin 64) : k0_pay2 (F := Ideal) (ix2 (0 : Fin 1) k) = 0 := by
  unfold k0_pay2
  rw [shapeCast_self]
  exact Ideal.ofBits_zero_f32

/-- The initial block of the output of column sums is zero. -/
theorem pay3_apply (r : Fin 8) (k : Fin 64) : k0_pay3 (F := Ideal) (ix2 r k) = 0 := by
  unfold k0_pay3
  exact Ideal.ofBits_zero_f32

/-- A sum over axis 1 of an [8192, 64] block reads, at row `r`, the sum over the 64 columns. -/
theorem rowsum_apply (src : FVec Ideal S8192x64 .f32) (h : S8192x64.Reduces [1] S8192) (hφ : FKind.Formats .f32)
    (hacc : (0x00000000#32 : BitVec 32) = 0x00000000#32) (r : Fin 8192) :
    multiReduction .add [1] S8192 src 0x00000000#32 h hφ hacc (ix1 r) = ∑ c : Fin 64, src (ix2 r c) := by
  refine (Ideal.multiReduction_add_single src 0x00000000#32 h hφ hacc (ix1 r)).trans ?_
  refine Finset.sum_congr rfl fun c _ => congrArg src ?_
  funext a
  match a with
  | ⟨0, _⟩ => exact Fin.ext rfl
  | ⟨1, _⟩ => exact Fin.ext rfl

/-- A sum over axis 0 of an [8192, 64] block reads, at column `k`, the sum over the 8192 rows. -/
theorem colsum_apply (src : FVec Ideal S8192x64 .f32) (h : S8192x64.Reduces [0] S64) (hφ : FKind.Formats .f32)
    (hacc : (0x00000000#32 : BitVec 32) = 0x00000000#32) (k : Fin 64) :
    multiReduction .add [0] S64 src 0x00000000#32 h hφ hacc (ix1 k) = ∑ r : Fin 8192, src (ix2 r k) := by
  refine (Ideal.multiReduction_add_single src 0x00000000#32 h hφ hacc (ix1 k)).trans ?_
  refine Finset.sum_congr rfl fun r _ => congrArg src ?_
  funext a
  match a with
  | ⟨0, _⟩ => exact Fin.ext rfl
  | ⟨1, _⟩ => exact Fin.ext rfl

/-- The partial column sums of a block of soft assignments. -/
theorem pay5_apply (x3 : Vec Ideal S8192x64 .f32) (x4 : Vec Ideal S64x64 .f32) (x5 : Vec Ideal S1x64 .f32) (k : Fin 64) :
    k0_pay5 (F := Ideal) x3 x4 x5 (ix2 (0 : Fin 1) k) = ∑ r : Fin 8192, k0_pay4 (F := Ideal) x3 x4 x5 (ix2 r k) := by
  unfold k0_pay5
  generalize k0_pay4 (F := Ideal) x3 x4 x5 = y
  refine (shapeCast_a_1a_apply _ _ (0 : Fin 1) k).trans ?_
  exact colsum_apply y _ _ _ k

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the operand's row `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A row sum kept as a column and broadcast back across the columns reads, at `(r, k)`, the sum of row `r`. -/
theorem keepsum_apply (y : FVec Ideal S8192x64 .f32) (h1 : S8192x64.Reduces [1] S8192) (hφ : FKind.Formats .f32)
    (hacc : (0x00000000#32 : BitVec 32) = 0x00000000#32) (h2 : S8192.ShapeCasts S8192x1) (h3 : S8192x1.Broadcasts S8192x64)
    (r : Fin 8192) (k : Fin 64) :
    broadcastTo S8192x64 (shapeCast S8192x1 (multiReduction .add [1] S8192 y 0x00000000#32 h1 hφ hacc) h2) h3 (ix2 r k)
      = ∑ c : Fin 64, y (ix2 r c) := by
  refine (broadcastTo_a1_ab_apply _ h3 r k).trans ?_
  refine (shapeCast_a_a1_apply _ h2 r (0 : Fin 1)).trans ?_
  exact rowsum_apply y h1 hφ hacc r

/-- A block divided by its own row sums reads, at `(r, k)`, the element over the sum of its row. -/
theorem rownorm_apply (y : FVec Ideal S8192x64 .f32) (h1 : S8192x64.Reduces [1] S8192) (hφ : FKind.Formats .f32)
    (hacc : (0x00000000#32 : BitVec 32) = 0x00000000#32) (h2 : S8192.ShapeCasts S8192x1) (h3 : S8192x1.Broadcasts S8192x64)
    (r : Fin 8192) (k : Fin 64) :
    divf y (broadcastTo S8192x64 (shapeCast S8192x1 (multiReduction .add [1] S8192 y 0x00000000#32 h1 hφ hacc) h2) h3) (ix2 r k)
      = Ideal.div (y (ix2 r k)) (∑ c : Fin 64, y (ix2 r c)) := by
  refine (divf_apply _ _ _).trans ?_
  exact congrArg (Ideal.div (y (ix2 r k))) (keepsum_apply y h1 hφ hacc h2 h3 r k)

/-- The second kernel's block: each row of soft assignments squared over the column sums, then normalised. -/
theorem kpay1_apply (v0 : Vec Ideal S8192x64 .f32) (v2 : Vec Ideal S1x64 .f32) (r : Fin 8192) (k : Fin 64) :
    k1_pay1 (F := Ideal) v0 v2 (ix2 r k) = Cert.Spec.prow (fun k' => v0 (ix2 r k')) (fun k' => v2 (ix2 (0 : Fin 1) k')) k := by
  unfold k1_pay1
  rw [shapeCast_self, shapeCast_self]
  refine (rownorm_apply _ _ _ _ _ _ r k).trans ?_
  have h6 : ∀ c : Fin 64, divf (F := Ideal) (φ := .f32) (mulf v0 v0) (broadcastTo S8192x64 v2 broadcasts_S1x64_S8192x64) (ix2 r c)
      = Cert.Spec.praw (fun k' => v0 (ix2 r k')) (fun k' => v2 (ix2 (0 : Fin 1) k')) c := fun c => by
    refine (divf_apply _ _ _).trans ?_
    exact congrArg (Ideal.div (v0 (ix2 r c) * v0 (ix2 r c))) (broadcastTo_1b_ab_apply v2 _ r c)
  exact congrArg₂ Ideal.div (h6 k) (Finset.sum_congr rfl fun c _ => h6 c)

theorem lhs_0 (i : S8192x64.Idx) (q : dot_S8192x64_S64x64_S8192x64_1_0_0_1_n_n.contr.Idx) : (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem lhs_1 (i : S8192x64.Idx) (q : dot_S8192x64_S64x64_S8192x64_1_0_0_1_n_n.contr.Idx) : (dot_S8192x64_S64x64_S8192x64_1_0_0_1_n_n.lhsIdx i q 1).val = (q ⟨0, by decide⟩).val :=
  dot_S8192x64_S64x64_S8192x64_1_0_0_1_n_n.lhsIdx_val_of_single rfl i q
theorem rhs_0 (i : S8192x64.Idx) (q : dot_S8192x64_S64x64_S8192x64_1_0_0_1_n_n.contr.Idx) : (dot_S8192x64_S64x64_S8192x64_1_0_0_1_n_n.rhsIdx i q 0).val = (q ⟨0, by decide⟩).val :=
  dot_S8192x64_S64x64_S8192x64_1_0_0_1_n_n.rhsIdx_val_of_single rfl i q
theorem rhs_1 (i : S8192x64.Idx) (q : dot_S8192x64_S64x64_S8192x64_1_0_0_1_n_n.contr.Idx) : (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The product of a block of rows with the transposed centroids, into the zero accumulator, reads at `(r, c)` the inner
    product of row `r` with centroid `c`; the two narrowing format changes are the identity on the extended reals. -/
theorem dot_apply (v3 : Vec Ideal S8192x64 .f32) (v4 : Vec Ideal S64x64 .f32) (hb : FTy.bits .bf16 < FTy.bits .f32)
    (ht : S64x64.Transposes [1, 0] S64x64) (r : Fin 8192) (c : Fin 64) :
    matmul (F := Ideal) dot_S8192x64_S64x64_S8192x64_1_0_0_1_n_n none (truncf .bf16 (φ := .f32) v3 hb) (transpose S64x64 [1, 0] (truncf (F := Ideal) .bf16 (φ := .f32) v4 hb) ht)
        (constant S8192x64 .f32 0x00000000#32) (ix2 r c)
      = ∑ h : Fin 64, v3 (ix2 r h) * v4 (ix2 c h) := by
  refine (Ideal.matmul_constant_zero_apply dot_S8192x64_S64x64_S8192x64_1_0_0_1_n_n none _ _ (ix2 r c)).trans ?_
  rw [← Equiv.sum_comp (contrEquiv1 dot_S8192x64_S64x64_S8192x64_1_0_0_1_n_n 64 rfl rfl).symm]
  refine Finset.sum_congr rfl fun h _ => ?_
  have hk := contrEquiv1_symm_val dot_S8192x64_S64x64_S8192x64_1_0_0_1_n_n 64 rfl rfl h
  have el : dot_S8192x64_S64x64_S8192x64_1_0_0_1_n_n.lhsIdx (ix2 r c) ((contrEquiv1 dot_S8192x64_S64x64_S8192x64_1_0_0_1_n_n 64 rfl rfl).symm h) = ix2 r h := funext fun a => Fin.ext (by
    match a with
    | ⟨0, _⟩ => exact lhs_0 _ _
    | ⟨1, _⟩ => exact (lhs_1 _ _).trans hk)
  have er : dot_S8192x64_S64x64_S8192x64_1_0_0_1_n_n.rhsIdx (ix2 r c) ((contrEquiv1 dot_S8192x64_S64x64_S8192x64_1_0_0_1_n_n 64 rfl rfl).symm h) = ix2 h c := funext fun a => Fin.ext (by
    match a with
    | ⟨0, _⟩ => exact (rhs_0 _ _).trans hk
    | ⟨1, _⟩ => exact rhs_1 _ _)
  rw [el, er]
  exact congrArg (v3 (ix2 r h) * ·) (transpose_ix2_apply _ ht h c)

/-- The pointwise chain from the squared distance's three parts to the unnormalised soft assignment, read at `(r, c)`:
    the float words of 0.0, 1.0 and 2.0 stay words. -/
theorem chain_apply (A B M : FVec Ideal S8192x64 .f32) (r : Fin 8192) (c : Fin 64) (a b m : EReal)
    (hA : A (ix2 r c) = a) (hB : B (ix2 r c) = b) (hM : M (ix2 r c) = m) :
    divf (broadcast S8192x64 (Scalar.ofBits (F := Ideal) .f32 0x3F800000#32))
        (addf (broadcast S8192x64 (Scalar.ofBits (F := Ideal) .f32 0x3F800000#32))
          (divf (sqrt (maximumf (subf (addf A B) (mulf (broadcast S8192x64 (Scalar.ofBits (F := Ideal) .f32 0x40000000#32)) M))
              (broadcast S8192x64 (Scalar.ofBits (F := Ideal) .f32 0x00000000#32))))
            (broadcast S8192x64 (Scalar.ofBits (F := Ideal) .f32 0x3F800000#32)))) (ix2 r c)
      = Ideal.div Cert.Spec.w1 (Cert.Spec.w1 + Ideal.div (Ideal.sqrt (max ((a + b) - Cert.Spec.w2 * m) Cert.Spec.w0)) Cert.Spec.w1) := by
  subst hA hB hM
  rfl

/-- The soft assignments of a block of rows, read at `(r, k)`: the unnormalised assignment over its row's total. -/
theorem pay4_apply (x3 : Vec Ideal S8192x64 .f32) (x4 : Vec Ideal S64x64 .f32) (x5 : Vec Ideal S1x64 .f32) (r : Fin 8192) (k : Fin 64) :
    k0_pay4 (F := Ideal) x3 x4 x5 (ix2 r k) = Cert.Spec.qrow (fun h => x3 (ix2 r h)) x4 (fun k' => x5 (ix2 (0 : Fin 1) k')) k := by
  unfold k0_pay4
  rw [shapeCast_self]
  refine (rownorm_apply _ _ _ _ _ _ r k).trans ?_
  refine congrArg₂ Ideal.div ?_ (Finset.sum_congr rfl fun c _ => ?_)
  · exact chain_apply _ _ _ r k _ _ _ (keepsum_apply (mulf x3 x3) _ _ _ _ _ r k) (broadcastTo_1b_ab_apply x5 _ r k)
      (dot_apply x3 x4 _ _ r k)
  · exact chain_apply _ _ _ r c _ _ _ (keepsum_apply (mulf x3 x3) _ _ _ _ _ r c) (broadcastTo_1b_ab_apply x5 _ r c)
      (dot_apply x3 x4 _ _ r c)

end Cert.KernelIdeal.PayIdeal

end
-- ==== Proof.HostIdeal.lean ====
/-
  The host operations of the kernel's main function read at an index, and the two sum identities the
  column sums need.

  The first stretch squares the centroid array, sums each row from the zero word, and lays the 64 sums out
  as a [1, 64] row: at (0, k) that is the squared norm of centroid k.  The second stretch adds rows 0 and 8
  of a [16, 64] array.  The sum identities: an accumulator that restarts every 64 steps and is read at
  steps 63 and 127 holds the total over 128 steps; and a double sum over (block, offset) with blocks of
  equal length is the single sum over the flat index.
-/
import proofs.«115045_j25494925869839_2_alg».proof.Proof.Gen.KernelIdeal.Launch
import proofs.«115045_j25494925869839_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.HostIdeal

open Idealize.ShloMosaic Idealize.ShloMosaic.ValueIdx Cert.KernelIdeal Cert.KernelIdeal.Gen

/-! ## Sums on the extended reals -/

/-- Within one run of 64 steps starting at `base` (0 or 64), the accumulator after step `base + j` is the sum
    of the first `j + 1` terms of the run. -/
theorem acc_run (p a : ℕ → EReal) (hfirst : ∀ t, t < 128 → t % 64 = 0 → a t = 0 + p t)
    (hnext : ∀ t, t < 128 → ¬ t % 64 = 0 → a t = a (t - 1) + p t) (base : ℕ) (hb : base = 0 ∨ base = 64)
    (j : ℕ) (hj : j < 64) : a (base + j) = ∑ i ∈ Finset.range (j + 1), p (base + i) := by
  induction j with
  | zero =>
    rw [Finset.sum_range_one, Nat.add_zero, hfirst base (by omega) (by omega), zero_add]
  | succ j ih =>
    rw [Finset.sum_range_succ, ← ih (by omega), hnext (base + (j + 1)) (by omega) (by omega)]
    rfl

/-- The accumulator read at the end of each of the two runs: together the sum of all 128 terms. -/
theorem acc_total (p a : ℕ → EReal) (hfirst : ∀ t, t < 128 → t % 64 = 0 → a t = 0 + p t)
    (hnext : ∀ t, t < 128 → ¬ t % 64 = 0 → a t = a (t - 1) + p t) :
    a 63 + a 127 = ∑ n ∈ Finset.range 128, p n := by
  have h0 := acc_run p a hfirst hnext 0 (Or.inl rfl) 63 (by omega)
  have h1 := acc_run p a hfirst hnext 64 (Or.inr rfl) 63 (by omega)
  rw [show (128 : ℕ) = 64 + 64 from rfl, Finset.sum_range_add]
  rw [show (0 : ℕ) + 63 = 63 from rfl] at h0
  rw [show (64 : ℕ) + 63 = 127 from rfl] at h1
  rw [h0, h1]
  refine congrArg (· + _) (Finset.sum_congr rfl fun i _ => ?_)
  rw [Nat.zero_add]

/-- A double sum over `A` blocks of `B` consecutive terms is the sum over the `A * B` terms. -/
theorem blocksum (A B : ℕ) (g : ℕ → EReal) :
    ∑ n ∈ Finset.range A, ∑ r ∈ Finset.range B, g (n * B + r) = ∑ b ∈ Finset.range (A * B), g b := by
  induction A with
  | zero => rw [Nat.zero_mul, Finset.sum_range_zero, Finset.sum_range_zero]
  | succ A ih => rw [Finset.sum_range_succ, ih, Nat.succ_mul, Finset.sum_range_add]

/-- The column sum of a matrix of 1048576 rows, taken as 128 blocks of 8192 rows. -/
theorem colsum_blocks (q : (⟨2, ![1048576, 64]⟩ : Shape).Idx → EReal) (k : Fin 64) :
    ∑ n ∈ Finset.range 128, ∑ r : Fin 8192,
        (if h : n * 8192 + r.val < 1048576 then q (ix2 ⟨n * 8192 + r.val, h⟩ k) else 0)
      = Cert.Spec.colsum q k := by
  have hg : ∀ n : ℕ, ∑ r : Fin 8192,
        (if h : n * 8192 + r.val < 1048576 then q (ix2 ⟨n * 8192 + r.val, h⟩ k) else 0)
      = ∑ r ∈ Finset.range 8192,
          (fun b : ℕ => if h : b < 1048576 then q (ix2 ⟨b, h⟩ k) else 0) (n * 8192 + r) := fun n =>
    Fin.sum_univ_eq_sum_range
      (fun r : ℕ => (fun b : ℕ => if h : b < 1048576 then q (ix2 ⟨b, h⟩ k) else 0) (n * 8192 + r)) 8192
  rw [Finset.sum_congr rfl fun n _ => hg n,
    blocksum 128 8192 (fun b : ℕ => if h : b < 1048576 then q (ix2 ⟨b, h⟩ k) else 0),
    show (128 : ℕ) * 8192 = 1048576 from by norm_num,
    ← Fin.sum_univ_eq_sum_range (fun b : ℕ => if h : b < 1048576 then q (ix2 ⟨b, h⟩ k) else 0) 1048576]
  unfold Cert.Spec.colsum
  refine Finset.sum_congr rfl fun b _ => ?_
  exact dif_pos b.isLt

/-! ## The second host stretch: rows 0 and 8 of a [16, 64] array added -/

/-- At (0, k) the sum of the two one-row slices is row 0 plus row 8 of the array at column k. -/
theorem v7_apply (y : FVec Ideal S16x64 .f32) (k : Fin 64) :
    (addf (extractStridedSlice S1x64 ![0, 0] y slices_S16x64_S1x64_0_0)
        (extractStridedSlice S1x64 ![8, 0] y slices_S16x64_S1x64_8_0)) (ix2 (0 : Fin 1) k)
      = y (ix2 (0 : Fin 16) k) + y (ix2 (8 : Fin 16) k) := by
  have e0 : extractStridedSlice S1x64 ![0, 0] y slices_S16x64_S1x64_0_0 (ix2 (0 : Fin 1) k) = y (ix2 (0 : Fin 16) k) :=
    extractStridedSlice_apply ![0, 0] y slices_S16x64_S1x64_0_0 (ix2 (0 : Fin 1) k) (ix2 (0 : Fin 16) k)
      (fun a => match a with | ⟨0, _⟩ => rfl | ⟨1, _⟩ => by simp)
  have e8 : extractStridedSlice S1x64 ![8, 0] y slices_S16x64_S1x64_8_0 (ix2 (0 : Fin 1) k) = y (ix2 (8 : Fin 16) k) :=
    extractStridedSlice_apply ![8, 0] y slices_S16x64_S1x64_8_0 (ix2 (0 : Fin 1) k) (ix2 (8 : Fin 16) k)
      (fun a => match a with | ⟨0, _⟩ => rfl | ⟨1, _⟩ => by simp)
  show extractStridedSlice S1x64 ![0, 0] y slices_S16x64_S1x64_0_0 (ix2 (0 : Fin 1) k)
      + extractStridedSlice S1x64 ![8, 0] y slices_S16x64_S1x64_8_0 (ix2 (0 : Fin 1) k) = _
  rw [e0, e8]

/-! ## The first host stretch: the centroids' squared norms as a [1, 64] row -/

/-- At (0, k) the transposed, broadcast row sums of the squared array are the squared norm of centroid k:
    the sum starts from the zero word, which is the extended real zero. -/
theorem c2_apply (x1 : FVec Ideal S64x64 .f32) (k : Fin 64) :
    (transpose S1x64 [1, 0]
        (broadcastInDim S64x1 ![0] bcast_S64_S64x1_0
          (Host.reduceAdd (F := Ideal) (mulf x1 x1) (constant (F := Ideal) S_ .f32 0x00000000#32)
            reducesTo_S64x64_S64_d1 h_S_))
        transposes_S64x1_S1x64_1_0) (ix2 (0 : Fin 1) k)
      = Cert.Spec.cnorm x1 k := by
  have hred : S64x64.Reduces [1] S64 := by decide
  rw [transpose_apply [1, 0] _ transposes_S64x1_S1x64_1_0 (ix2 (0 : Fin 1) k) (ix2 k (0 : Fin 1))
      (fun b => match b with | ⟨0, _⟩ => rfl | ⟨1, _⟩ => rfl)]
  rw [broadcastInDim_apply ![0] bcast_S64_S64x1_0 _ (ix2 k (0 : Fin 1)) (ix1 k)
      (fun a => match a with | ⟨0, _⟩ => rfl)]
  rw [hostReduceAdd_apply, Ideal.hostReduceAdd_single reducesTo_S64x64_S64_d1 hred]
  have hz : constant (F := Ideal) S_ .f32 0x00000000#32 (Shape.Idx.first h_S_) = 0 := Ideal.ofBits_zero_f32
  rw [hz, zero_add]
  unfold Cert.Spec.cnorm
  refine Finset.sum_congr rfl fun h _ => ?_
  have hl : hred.lift (ix1 k) h = ix2 k h :=
    funext fun d => match d with | ⟨0, _⟩ => rfl | ⟨1, _⟩ => rfl
  rw [hl]
  rfl

end Cert.KernelIdeal.HostIdeal

end
-- ==== Proof.KIVal0.lean ====
/-
  The first pipeline's arrays at the ideal values, read off its proof data.

  Step `t` of the grid (core `t / 64`, the core's step `t % 64`) works on rows `t·8192 … t·8192 + 8191`: its block of soft
  assignments is those rows of `Q`, so the array of soft assignments ends holding `Q`; the accumulator after step `t` holds,
  per centroid, the total of `Q`'s column over the rows of the core's steps so far, and row 0 (core 0) and row 8 (core 1) of
  the per-core column-sum array take the accumulator at the core's last step.
-/
import proofs.«115045_j25494925869839_2_alg».proof.Proof.KIRun
import proofs.«115045_j25494925869839_2_alg».proof.Proof.PayIdeal
import proofs.«115045_j25494925869839_2_alg».proof.Proof.HostIdeal
import proofs.«115045_j25494925869839_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

/-- The block index of each window at each step, decided over the grid. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val / 64 ∧ win0_4.index t (1 : Fin 2) = 0 :=
  (by decide +kernel : ∀ t : Fin grid0.N, _)

theorem lt128 (t : Fin cfg0.N) : t.val < 128 := lt_of_lt_of_eq t.isLt (show cfg0.N = 128 from N_0)

/-- The array row of row `r` of step `t`'s block. -/
def rowOf0 (t : Fin cfg0.N) (r : Fin 8192) : Fin 1048576 :=
  ⟨t.val * 8192 + r.val, by have := lt128 t; have := r.isLt; omega⟩

/-- The block of rows read at an index: the array at the block's row. -/
theorem iblk0_0_apply (c : Dev nD) (t : Fin cfg0.N) (r : Fin 8192) (h : Fin 64) :
    iblk0 V c 0 t (ix2 r h) = V c main_arg0 (ix2 (rowOf0 t r) h) := by
  show V c main_arg0 (((cfg0.win 0).blk t).view.emb (ix2 r h)) = V c main_arg0 (ix2 (rowOf0 t r) h)
  refine congrArg _ ?_
  obtain ⟨e0, e1, -⟩ := idx_facts0 t
  funext a; apply Fin.ext
  match a with
  | ⟨0, _⟩ => show win0_0.index t (0 : Fin 2) * 8192 + 1 * r.val = t.val * 8192 + r.val; omega
  | ⟨1, _⟩ => show win0_0.index t (1 : Fin 2) * 64 + 1 * h.val = h.val; omega

/-- The centroids' block is the whole array of centroids. -/
theorem iblk0_1_apply (c : Dev nD) (t : Fin cfg0.N) (y : S64x64.Idx) : iblk0 V c 1 t y = V c main_arg1 y := by
  show V c main_arg1 (((cfg0.win 1).blk t).view.emb y) = V c main_arg1 y
  refine congrArg _ ?_
  obtain ⟨-, -, e2, e3, -⟩ := idx_facts0 t
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The squared norms' block is the whole row of squared norms. -/
theorem iblk0_2_apply (c : Dev nD) (t : Fin cfg0.N) (y : S1x64.Idx) : iblk0 V c 2 t y = V c main_v3 y := by
  show V c main_v3 (((cfg0.win 2).blk t).view.emb y) = V c main_v3 y
  refine congrArg _ ?_
  obtain ⟨-, -, -, -, e4, e5, -⟩ := idx_facts0 t
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

section Entry
variable (c : Dev nD) (z : (⟨2, ![1048576, 64]⟩ : Shape).Idx → EReal) (cen : (⟨2, ![64, 64]⟩ : Shape).Idx → EReal)

/-- Step `t`'s stored block at row `r`, centroid `k` is the soft assignment of the block's row. -/
theorem qblk0_apply (hV0 : V c main_arg0 = z) (hV1 : V c main_arg1 = cen) (hV3 : ∀ k : Fin 64, V c main_v3 (ix2 (0 : Fin 1) k) = Cert.Spec.cnorm cen k)
    (t : Fin cfg0.N) (r : Fin 8192) (k : Fin 64) :
    qblk0 V c t (ix2 r k) = Cert.Spec.Qat z cen (rowOf0 t r) k := by
  unfold qblk0
  refine (PayIdeal.pay4_apply (iblk0 V c 0 t) (iblk0 V c 1 t) (iblk0 V c 2 t) r k).trans ?_
  unfold Cert.Spec.Qat
  have h0 : (fun h : Fin 64 => iblk0 V c 0 t (ix2 r h)) = fun h => z (ix2 (rowOf0 t r) h) :=
    funext fun h => by rw [iblk0_0_apply, hV0]
  have h1 : (iblk0 V c 1 t : S64x64.Idx → EReal) = cen := funext fun y => by rw [iblk0_1_apply, hV1]
  have h2 : (fun k' : Fin 64 => iblk0 V c 2 t (ix2 (0 : Fin 1) k')) = Cert.Spec.cnorm cen :=
    funext fun k' => by rw [iblk0_2_apply, hV3]
  rw [h0, h1, h2]

/-- What step `t` writes back into the array of soft assignments is the step's block of `Q`. -/
theorem flushed3_eq (hV0 : V c main_arg0 = z) (hV1 : V c main_arg1 = cen) (hV3 : ∀ k : Fin 64, V c main_v3 (ix2 (0 : Fin 1) k) = Cert.Spec.cnorm cen k)
    (t : Fin cfg0.N) :
    (dat0 V c).flushed 3 t = ((cfg0.win 3).blk t).view.read (Elt Ideal) (Cert.Spec.Q z cen) := by
  show (cfg0.win 3).cut (grid0.coords t) ((dat0 V c).after 3 t) = _
  rw [after0_3]
  funext j
  obtain ⟨r, k, rfl⟩ : ∃ (r : Fin 8192) (k : Fin 64), j = ix2 r k := ⟨j 0, j 1, eq_ix2 (n0 := 8192) (n1 := 64) j⟩
  show qblk0 V c t (ix2 r k) = Cert.Spec.Q z cen (((cfg0.win 3).blk t).view.emb (ix2 r k))
  rw [qblk0_apply V c z cen hV0 hV1 hV3 t r k]
  have he : ((cfg0.win 3).blk t).view.emb (ix2 r k) = ix2 (rowOf0 t r) k := by
    obtain ⟨-, -, -, -, -, -, e6, e7, -⟩ := idx_facts0 t
    funext a; apply Fin.ext
    match a with
    | ⟨0, _⟩ => show win0_3.index t (0 : Fin 2) * 8192 + 1 * r.val = t.val * 8192 + r.val; omega
    | ⟨1, _⟩ => show win0_3.index t (1 : Fin 2) * 64 + 1 * k.val = k.val; omega
  rw [he]
  rfl

/-- An index of the array is in step `t`'s block iff each coordinate is in the block's range on its axis. -/
theorem mem_blk3 (t : Fin cfg0.N) (i : S1048576x64.Idx) :
    i ∈ ((cfg0.win 3).blk t).view.set ↔ ∀ a : Fin 2, win0_3.index t a * S8192x64.size a ≤ (i a).val ∧ (i a).val < win0_3.index t a * S8192x64.size a + S8192x64.size a := by
  show i ∈ ((View.whole main_v4_0).slice (win0_3.rect t)).set ↔ _
  rw [View.set_slice_whole, Rect.mem_set_unit]
  exact Iff.rfl

/-- Every row is in the block of the step that works on it: row `b` in step `b / 8192`'s. -/
theorem cover3 (i : S1048576x64.Idx) : ∃ t : Fin cfg0.N, (cfg0.win 3).flush t = true ∧ i ∈ ((cfg0.win 3).blk t).view.set := by
  have hi0 : (i 0).val < 1048576 := (i 0).isLt
  have hi1 : (i 1).val < 64 := (i 1).isLt
  have hlt : (i 0).val / 8192 < cfg0.N := by rw [show cfg0.N = 128 from N_0]; omega
  refine ⟨⟨(i 0).val / 8192, hlt⟩, flush0_3 _, ?_⟩
  rw [mem_blk3]
  obtain ⟨-, -, -, -, -, -, e6, e7, -⟩ := idx_facts0 ⟨(i 0).val / 8192, hlt⟩
  have e6' : win0_3.index ⟨(i 0).val / 8192, hlt⟩ (0 : Fin 2) = (i 0).val / 8192 := e6
  intro a
  match a with
  | ⟨0, _⟩ => show win0_3.index ⟨(i 0).val / 8192, hlt⟩ (0 : Fin 2) * 8192 ≤ (i 0).val ∧ (i 0).val < win0_3.index ⟨(i 0).val / 8192, hlt⟩ (0 : Fin 2) * 8192 + 8192; omega
  | ⟨1, _⟩ => show win0_3.index ⟨(i 0).val / 8192, hlt⟩ (1 : Fin 2) * 64 ≤ (i 1).val ∧ (i 1).val < win0_3.index ⟨(i 0).val / 8192, hlt⟩ (1 : Fin 2) * 64 + 64; omega

/-- THE ARRAY OF SOFT ASSIGNMENTS after the first pipeline is `Q`. -/
theorem final3 (hV0 : V c main_arg0 = z) (hV1 : V c main_arg1 = cen) (hV3 : ∀ k : Fin 64, V c main_v3 (ix2 (0 : Fin 1) k) = Cert.Spec.cnorm cen k) :
    (dat0 V c).arrAt 3 cfg0.N = Cert.Spec.Q z cen :=
  (dat0 V c).arrAt_eq_of_cover 3 (Cert.Spec.Q z cen) (fun t _ => flushed3_eq V c z cen hV0 hV1 hV3 t) cover3

/-- The column sums of step `t`'s block: per centroid, the total of `Q`'s column over the block's rows. -/
theorem part0_apply (hV0 : V c main_arg0 = z) (hV1 : V c main_arg1 = cen) (hV3 : ∀ k : Fin 64, V c main_v3 (ix2 (0 : Fin 1) k) = Cert.Spec.cnorm cen k)
    (t : Fin cfg0.N) (k : Fin 64) :
    part0 V c t (ix2 (0 : Fin 1) k) = ∑ r : Fin 8192, Cert.Spec.Qat z cen (rowOf0 t r) k := by
  unfold part0
  refine (PayIdeal.pay5_apply (iblk0 V c 0 t) (iblk0 V c 1 t) (iblk0 V c 2 t) k).trans ?_
  exact Finset.sum_congr rfl fun r _ => qblk0_apply V c z cen hV0 hV1 hV3 t r k

/-- The accumulator at a core's first step: zero plus the step's column sums. -/
theorem accAt_first_apply (hV0 : V c main_arg0 = z) (hV1 : V c main_arg1 = cen) (hV3 : ∀ k : Fin 64, V c main_v3 (ix2 (0 : Fin 1) k) = Cert.Spec.cnorm cen k)
    (t : Fin cfg0.N) (h : t.val % 64 = 0) (k : Fin 64) :
    accAt V c t.val t.isLt (ix2 (0 : Fin 1) k) = 0 + ∑ r : Fin 8192, Cert.Spec.Qat z cen (rowOf0 t r) k := by
  rw [accAt_first V c t h]
  refine (PayIdeal.pay1_apply _ _ k).trans ?_
  rw [PayIdeal.pay2_apply, part0_apply V c z cen hV0 hV1 hV3 t k]

/-- The accumulator at a later step: what the step before left plus the step's column sums. -/
theorem accAt_next_apply (hV0 : V c main_arg0 = z) (hV1 : V c main_arg1 = cen) (hV3 : ∀ k : Fin 64, V c main_v3 (ix2 (0 : Fin 1) k) = Cert.Spec.cnorm cen k)
    (t : Fin cfg0.N) (h : ¬ t.val % 64 = 0) (k : Fin 64) :
    accAt V c t.val t.isLt (ix2 (0 : Fin 1) k)
      = accAt V c (t.val - 1) (Nat.lt_of_le_of_lt (Nat.sub_le _ _) t.isLt) (ix2 (0 : Fin 1) k) + ∑ r : Fin 8192, Cert.Spec.Qat z cen (rowOf0 t r) k := by
  rw [accAt_next V c t h]
  refine (PayIdeal.pay1_apply _ _ k).trans ?_
  rw [part0_apply V c z cen hV0 hV1 hV3 t k]

/-! ## The per-core column-sum array -/

/-- The last step of core 0's row of the grid, and of core 1's. -/
def t63 : Fin cfg0.N := ⟨63, by rw [show cfg0.N = 128 from N_0]; omega⟩
def t127 : Fin cfg0.N := ⟨127, by rw [show cfg0.N = 128 from N_0]; omega⟩

/-- What the array ends holding: rows 0–7 the block core 0 writes at its last step, rows 8–15 core 1's. -/
def G4 : S16x64.Idx → EReal := fun j =>
  out4 V c (if (j 0).val < 8 then t63 else t127) (ix2 (n0 := 8) (n1 := 64) ⟨(j 0).val % 8, Nat.mod_lt _ (by decide)⟩ (j 1))

theorem G4_apply (t : Fin cfg0.N) (h63 : t.val % 64 = 63) (r : Fin 8) (k : Fin 64) (hb : t.val / 64 * 8 + r.val < 16) :
    G4 V c (ix2 (n0 := 16) (n1 := 64) ⟨t.val / 64 * 8 + r.val, hb⟩ k) = out4 V c t (ix2 r k) := by
  have hN := lt128 t
  have hr := r.isLt
  show out4 V c (if t.val / 64 * 8 + r.val < 8 then t63 else t127)
      (ix2 (n0 := 8) (n1 := 64) ⟨(t.val / 64 * 8 + r.val) % 8, Nat.mod_lt _ (by decide)⟩ k) = out4 V c t (ix2 r k)
  have h1 : (if t.val / 64 * 8 + r.val < 8 then t63 else t127) = t := by
    rcases (show t.val = 63 ∨ t.val = 127 by omega) with h | h
    · rw [if_pos (by omega)]; exact Fin.ext h.symm
    · rw [if_neg (by omega)]; exact Fin.ext h.symm
  have h2 : (⟨(t.val / 64 * 8 + r.val) % 8, Nat.mod_lt _ (by decide)⟩ : Fin 8) = r := Fin.ext (by show (t.val / 64 * 8 + r.val) % 8 = r.val; omega)
  rw [h1, h2]

/-- What a core's last step writes back is its block of that function. -/
theorem flushed4_eq (t : Fin cfg0.N) (hf : (cfg0.win 4).flush t = true) :
    (dat0 V c).flushed 4 t = ((cfg0.win 4).blk t).view.read (Elt Ideal) (G4 V c) := by
  have h63 : t.val % 64 = 63 := (flush0_4 t).mp hf
  have hN := lt128 t
  show (cfg0.win 4).cut (grid0.coords t) ((dat0 V c).after 4 t) = _
  rw [after0_4]
  funext j
  obtain ⟨r, k, rfl⟩ : ∃ (r : Fin 8) (k : Fin 64), j = ix2 r k := ⟨j 0, j 1, eq_ix2 (n0 := 8) (n1 := 64) j⟩
  show out4 V c t (ix2 r k) = G4 V c (((cfg0.win 4).blk t).view.emb (ix2 r k))
  obtain ⟨-, -, -, -, -, -, -, -, e8, e9⟩ := idx_facts0 t
  have hr := r.isLt
  have hb : t.val / 64 * 8 + r.val < 16 := by omega
  have he : ((cfg0.win 4).blk t).view.emb (ix2 r k) = ix2 (n0 := 16) (n1 := 64) ⟨t.val / 64 * 8 + r.val, hb⟩ k := by
    funext a; apply Fin.ext
    match a with
    | ⟨0, _⟩ => show win0_4.index t (0 : Fin 2) * 8 + 1 * r.val = t.val / 64 * 8 + r.val; omega
    | ⟨1, _⟩ => show win0_4.index t (1 : Fin 2) * 64 + 1 * k.val = k.val; omega
  rw [he, G4_apply V c t h63 r k hb]

/-- So a core's block of the array, read back after the pipeline, is what its last step left. -/
theorem final4_blk (t : Fin cfg0.N) (hf : (cfg0.win 4).flush t = true) :
    ((cfg0.win 4).blk t).view.read (Elt Ideal) ((dat0 V c).arrAt 4 cfg0.N) = out4 V c t :=
  ((dat0 V c).read_blk_arrAt 4 (G4 V c) (flushed4_eq V c) t hf).trans
    ((flushed4_eq V c t hf).symm.trans (by
      show (cfg0.win 4).cut (grid0.coords t) ((dat0 V c).after 4 t) = _
      rw [after0_4]; try rfl))

/-- Row 0 of the array is core 0's total: the accumulator after step 63. -/
theorem final4_row0 (k : Fin 64) :
    (dat0 V c).arrAt 4 cfg0.N (ix2 (0 : Fin 16) k) = accAt V c 63 t63.isLt (ix2 (0 : Fin 1) k) := by
  have hf : (cfg0.win 4).flush t63 = true := (flush0_4 t63).mpr (by show 63 % 64 = 63; decide)
  have h : (dat0 V c).arrAt 4 cfg0.N (((cfg0.win 4).blk t63).view.emb (ix2 (0 : Fin 8) k)) = out4 V c t63 (ix2 (0 : Fin 8) k) :=
    congrFun (final4_blk V c t63 hf) (ix2 (0 : Fin 8) k)
  have he : ((cfg0.win 4).blk t63).view.emb (ix2 (0 : Fin 8) k) = ix2 (0 : Fin 16) k := by
    obtain ⟨-, -, -, -, -, -, -, -, e8, e9⟩ := idx_facts0 t63
    have e8' : win0_4.index t63 (0 : Fin 2) = 63 / 64 := e8
    funext a; apply Fin.ext
    match a with
    | ⟨0, _⟩ => show win0_4.index t63 (0 : Fin 2) * 8 + 1 * 0 = 0; omega
    | ⟨1, _⟩ => show win0_4.index t63 (1 : Fin 2) * 64 + 1 * k.val = k.val; omega
  rw [he] at h
  rw [h]
  unfold out4
  rw [if_pos (show t63.val % 64 = 63 by show 63 % 64 = 63; decide)]
  unfold rowUpd
  exact if_pos (show (0 : ℕ) < 1 by decide)

/-- Row 8 of the array is core 1's total: the accumulator after step 127. -/
theorem final4_row8 (k : Fin 64) :
    (dat0 V c).arrAt 4 cfg0.N (ix2 (8 : Fin 16) k) = accAt V c 127 t127.isLt (ix2 (0 : Fin 1) k) := by
  have hf : (cfg0.win 4).flush t127 = true := (flush0_4 t127).mpr (by show 127 % 64 = 63; decide)
  have h : (dat0 V c).arrAt 4 cfg0.N (((cfg0.win 4).blk t127).view.emb (ix2 (0 : Fin 8) k)) = out4 V c t127 (ix2 (0 : Fin 8) k) :=
    congrFun (final4_blk V c t127 hf) (ix2 (0 : Fin 8) k)
  have he : ((cfg0.win 4).blk t127).view.emb (ix2 (0 : Fin 8) k) = ix2 (8 : Fin 16) k := by
    obtain ⟨-, -, -, -, -, -, -, -, e8, e9⟩ := idx_facts0 t127
    have e8' : win0_4.index t127 (0 : Fin 2) = 127 / 64 := e8
    funext a; apply Fin.ext
    match a with
    | ⟨0, _⟩ => show win0_4.index t127 (0 : Fin 2) * 8 + 1 * 0 = 8; omega
    | ⟨1, _⟩ => show win0_4.index t127 (1 : Fin 2) * 64 + 1 * k.val = k.val; omega
  rw [he] at h
  rw [h]
  unfold out4
  rw [if_pos (show t127.val % 64 = 63 by show 127 % 64 = 63; decide)]
  unfold rowUpd
  exact if_pos (show (0 : ℕ) < 1 by decide)

/-- THE COLUMN SUMS: the two cores' totals add up to the sum of `Q`'s column over all rows — each core's accumulator is
    the running total of its steps' block sums, and the 128 blocks of 8192 rows are all the rows. -/
theorem colsum_rows (hV0 : V c main_arg0 = z) (hV1 : V c main_arg1 = cen) (hV3 : ∀ k : Fin 64, V c main_v3 (ix2 (0 : Fin 1) k) = Cert.Spec.cnorm cen k) (k : Fin 64) :
    accAt V c 63 t63.isLt (ix2 (0 : Fin 1) k) + accAt V c 127 t127.isLt (ix2 (0 : Fin 1) k) = Cert.Spec.colsum (Cert.Spec.Q z cen) k := by
  have hNN : cfg0.N = 128 := N_0
  have hfirst : ∀ t, t < 128 → t % 64 = 0 →
      (fun n => if h : n < cfg0.N then accAt V c n h (ix2 (0 : Fin 1) k) else 0) t
        = 0 + (fun n => if h : n < cfg0.N then ∑ r : Fin 8192, Cert.Spec.Qat z cen (rowOf0 ⟨n, h⟩ r) k else 0) t := by
    intro n hn h0
    have hlt : n < cfg0.N := by rw [hNN]; exact hn
    show (if h : n < cfg0.N then accAt V c n h (ix2 (0 : Fin 1) k) else 0) = 0 + (if h : n < cfg0.N then ∑ r : Fin 8192, Cert.Spec.Qat z cen (rowOf0 ⟨n, h⟩ r) k else 0)
    rw [dif_pos hlt, dif_pos hlt]
    exact accAt_first_apply V c z cen hV0 hV1 hV3 ⟨n, hlt⟩ h0 k
  have hnext : ∀ t, t < 128 → ¬ t % 64 = 0 →
      (fun n => if h : n < cfg0.N then accAt V c n h (ix2 (0 : Fin 1) k) else 0) t
        = (fun n => if h : n < cfg0.N then accAt V c n h (ix2 (0 : Fin 1) k) else 0) (t - 1)
          + (fun n => if h : n < cfg0.N then ∑ r : Fin 8192, Cert.Spec.Qat z cen (rowOf0 ⟨n, h⟩ r) k else 0) t := by
    intro n hn h0
    have hlt : n < cfg0.N := by rw [hNN]; exact hn
    have hlt' : n - 1 < cfg0.N := by rw [hNN]; omega
    show (if h : n < cfg0.N then accAt V c n h (ix2 (0 : Fin 1) k) else 0)
      = (if h : n - 1 < cfg0.N then accAt V c (n - 1) h (ix2 (0 : Fin 1) k) else 0)
        + (if h : n < cfg0.N then ∑ r : Fin 8192, Cert.Spec.Qat z cen (rowOf0 ⟨n, h⟩ r) k else 0)
    rw [dif_pos hlt, dif_pos hlt, dif_pos hlt']
    exact accAt_next_apply V c z cen hV0 hV1 hV3 ⟨n, hlt⟩ h0 k
  have hsum := HostIdeal.acc_total _ _ hfirst hnext
  have ha63 : (fun n => if h : n < cfg0.N then accAt V c n h (ix2 (0 : Fin 1) k) else 0) 63 = accAt V c 63 t63.isLt (ix2 (0 : Fin 1) k) :=
    dif_pos t63.isLt
  have ha127 : (fun n => if h : n < cfg0.N then accAt V c n h (ix2 (0 : Fin 1) k) else 0) 127 = accAt V c 127 t127.isLt (ix2 (0 : Fin 1) k) :=
    dif_pos t127.isLt
  rw [← ha63, ← ha127, hsum, ← HostIdeal.colsum_blocks (Cert.Spec.Q z cen) k]
  refine Finset.sum_congr rfl fun n hn => ?_
  have hn' : n < 128 := Finset.mem_range.mp hn
  have hlt : n < cfg0.N := by rw [hNN]; exact hn'
  show (if h : n < cfg0.N then ∑ r : Fin 8192, Cert.Spec.Qat z cen (rowOf0 ⟨n, h⟩ r) k else 0) = _
  rw [dif_pos hlt]
  refine Finset.sum_congr rfl fun r _ => ?_
  have hr := r.isLt
  have hb : n * 8192 + r.val < 1048576 := by omega
  rw [dif_pos hb]
  rfl

end Entry

end Cert.KernelIdeal.Val

end
-- ==== Proof.KIVal1.lean ====
/-
  The second pipeline's output array at the ideal values.

  Step `t` of the grid works on rows `t·8192 … t·8192 + 8191`: its block of soft assignments is those rows of `Q`, its
  block of column sums is the whole row of column sums, and the block it writes back is those rows sharpened and
  normalised again: block `t` of `P`.  The 128 blocks cover the array, so the array ends holding `P`.
-/
import proofs.«115045_j25494925869839_2_alg».proof.Proof.KIData
import proofs.«115045_j25494925869839_2_alg».proof.Proof.PayIdeal
import proofs.«115045_j25494925869839_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

/-- The block index of each window at each step, decided over the grid: the two big arrays move one block of rows per
    step, the row of column sums stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt128 (t : Fin cfg1.N) : t.val < 128 := lt_of_lt_of_eq t.isLt (show cfg1.N = 128 from N_1)

/-- The array row of row `r` of step `t`'s block. -/
def rowOf1 (t : Fin cfg1.N) (r : Fin 8192) : Fin 1048576 :=
  ⟨t.val * 8192 + r.val, by have := lt128 t; have := r.isLt; omega⟩

/-- The block of soft assignments read at an index: the array at the block's row. -/
theorem iblk1_0_apply (c : Dev nD) (t : Fin cfg1.N) (r : Fin 8192) (k : Fin 64) :
    iblk1 V c 0 t (ix2 r k) = V c main_v4_0 (ix2 (rowOf1 t r) k) := by
  show V c main_v4_0 (((cfg1.win 0).blk t).view.emb (ix2 r k)) = V c main_v4_0 (ix2 (rowOf1 t r) k)
  refine congrArg _ ?_
  obtain ⟨e0, e1, -⟩ := idx_facts1 t
  funext a; apply Fin.ext
  match a with
  | ⟨0, _⟩ => show win1_0.index t (0 : Fin 2) * 8192 + 1 * r.val = t.val * 8192 + r.val; omega
  | ⟨1, _⟩ => show win1_0.index t (1 : Fin 2) * 64 + 1 * k.val = k.val; omega

/-- The column sums' block is the whole row of column sums. -/
theorem iblk1_1_apply (c : Dev nD) (t : Fin cfg1.N) (y : S1x64.Idx) : iblk1 V c 1 t y = V c main_v7 y := by
  show V c main_v7 (((cfg1.win 1).blk t).view.emb y) = V c main_v7 y
  refine congrArg _ ?_
  obtain ⟨-, -, e2, e3, -⟩ := idx_facts1 t
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Where step `t`'s output block sits in the array: its row `r` is array row `t·8192 + r`. -/
theorem embP (t : Fin cfg1.N) (r : Fin 8192) (k : Fin 64) :
    ((cfg1.win 2).blk t).view.emb (ix2 r k) = ix2 (rowOf1 t r) k := by
  obtain ⟨-, -, -, -, e4, e5⟩ := idx_facts1 t
  funext a; apply Fin.ext
  match a with
  | ⟨0, _⟩ => show win1_2.index t (0 : Fin 2) * 8192 + 1 * r.val = t.val * 8192 + r.val; omega
  | ⟨1, _⟩ => show win1_2.index t (1 : Fin 2) * 64 + 1 * k.val = k.val; omega

/-- What step `t` writes back is block `t` of `P`, given that the array of soft assignments holds `Q` and the row
    of column sums holds `Q`'s column sums. -/
theorem flushedP_eq (c : Dev nD) (z : (⟨2, ![1048576, 64]⟩ : Shape).Idx → EReal) (cen : (⟨2, ![64, 64]⟩ : Shape).Idx → EReal)
    (hQ : V c main_v4_0 = Cert.Spec.Q z cen)
    (hCS : ∀ k : Fin 64, V c main_v7 (ix2 (0 : Fin 1) k) = Cert.Spec.colsum (Cert.Spec.Q z cen) k) (t : Fin cfg1.N) :
    (dat1 V c).flushed 2 t = ((cfg1.win 2).blk t).view.read (Elt Ideal) (Cert.Spec.P z cen) := by
  show (cfg1.win 2).cut (grid1.coords t) ((dat1 V c).after 2 t) = _
  rw [after1_2]
  funext j
  obtain ⟨r, k, rfl⟩ : ∃ (r : Fin 8192) (k : Fin 64), j = ix2 r k := ⟨j 0, j 1, eq_ix2 (n0 := 8192) (n1 := 64) j⟩
  show k1_pay1 (F := Ideal) (iblk1 V c 0 t) (iblk1 V c 1 t) (ix2 r k) = _
  rw [View.read_apply, embP, cast_eq]
  refine (PayIdeal.kpay1_apply _ _ r k).trans ?_
  rw [Cert.Spec.P_ix2]
  unfold Cert.Spec.Pat
  have h0 : (fun k' : Fin 64 => iblk1 V c 0 t (ix2 r k')) = fun k' => Cert.Spec.Q z cen (ix2 (rowOf1 t r) k') :=
    funext fun k' => by rw [iblk1_0_apply, hQ]
  have h1 : (fun k' : Fin 64 => iblk1 V c 1 t (ix2 (0 : Fin 1) k')) = Cert.Spec.colsum (Cert.Spec.Q z cen) :=
    funext fun k' => by rw [iblk1_1_apply, hCS]
  rw [h0, h1]

/-- An index of the array is in step `t`'s block iff each coordinate is in the block's range on its axis. -/
theorem mem_blkP (t : Fin cfg1.N) (i : S1048576x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v8).slice (win1_2.rect t)).set ↔ _
  rw [View.set_slice_whole, Rect.mem_set_unit]
  exact Iff.rfl

/-- Every index of the array is in some step's block: row `b` is in the block of step `b / 8192`. -/
theorem coverP (i : S1048576x64.Idx) :
    ∃ t : Fin cfg1.N, (cfg1.win 2).flush t = true ∧ i ∈ ((cfg1.win 2).blk t).view.set := by
  have hi0 : (i 0).val < 1048576 := (i 0).isLt
  have hi1 : (i 1).val < 64 := (i 1).isLt
  have hN : (i 0).val / 8192 < cfg1.N := by rw [show cfg1.N = 128 from N_1]; omega
  obtain ⟨-, -, -, -, e4, e5⟩ := idx_facts1 ⟨(i 0).val / 8192, hN⟩
  refine ⟨⟨(i 0).val / 8192, hN⟩, flush1_2 _, ?_⟩
  rw [mem_blkP]
  intro a
  match a with
  | ⟨0, _⟩ =>
    show win1_2.index ⟨(i 0).val / 8192, hN⟩ (0 : Fin 2) * 8192 ≤ (i 0).val
      ∧ (i 0).val < win1_2.index ⟨(i 0).val / 8192, hN⟩ (0 : Fin 2) * 8192 + 8192
    rw [e4]; show (i 0).val / 8192 * 8192 ≤ (i 0).val ∧ (i 0).val < (i 0).val / 8192 * 8192 + 8192; omega
  | ⟨1, _⟩ =>
    show win1_2.index ⟨(i 0).val / 8192, hN⟩ (1 : Fin 2) * 64 ≤ (i 1).val
      ∧ (i 1).val < win1_2.index ⟨(i 0).val / 8192, hN⟩ (1 : Fin 2) * 64 + 64
    rw [e5]; omega

/-- The second pipeline's output array ends holding `P`. -/
theorem final_P (c : Dev nD) (z : (⟨2, ![1048576, 64]⟩ : Shape).Idx → EReal) (cen : (⟨2, ![64, 64]⟩ : Shape).Idx → EReal)
    (hQ : V c main_v4_0 = Cert.Spec.Q z cen)
    (hCS : ∀ k : Fin 64, V c main_v7 (ix2 (0 : Fin 1) k) = Cert.Spec.colsum (Cert.Spec.Q z cen) k) :
    (dat1 V c).arrAt 2 cfg1.N = Cert.Spec.P z cen :=
  (dat1 V c).arrAt_eq_of_cover 2 (Cert.Spec.P z cen) (fun t _ => flushedP_eq V c z cen hQ hCS t) coverP

end Cert.KernelIdeal.Val1

end
-- ==== Proof.KIVal.lean ====
/-
  The kernel program's run at the ideal values with both results named: the array of soft assignments ends holding `Q` of
  the two arguments and the second pipeline's output ends holding `P` of them.

  The first pipeline is entered with the arguments as launched and the row of the centroids' squared norms the host
  computed; it leaves `Q` and, in rows 0 and 8 of the per-core array, the two cores' column totals. The host adds the two
  rows: the column sums of `Q`. The second pipeline is entered with `Q` and that row, and leaves `P`.
-/
import proofs.«115045_j25494925869839_2_alg».proof.Proof.KIVal0
import proofs.«115045_j25494925869839_2_alg».proof.Proof.KIVal1
import Idealize.ShloMosaic.Lib.StableHlo.Run
import proofs.«115045_j25494925869839_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

/-! ## What the first pipeline is entered with -/

theorem V1_arg0 (c : Dev nD) : V1 m ρ c main_arg0 = m ((c : Thread nD τ).loc main_arg0) :=
  (W1_of m ρ c main_arg0 (by decide)).trans rfl
theorem V1_arg1 (c : Dev nD) : V1 m ρ c main_arg1 = m ((c : Thread nD τ).loc main_arg1) :=
  (W1_of m ρ c main_arg1 (by decide)).trans rfl

/-- The host's row of squared norms, read at a centroid. -/
theorem V1_v3 (c : Dev nD) (k : Fin 64) :
    V1 m ρ c main_v3 (ix2 (0 : Fin 1) k) = Cert.Spec.cnorm (m ((c : Thread nD τ).loc main_arg1)) k := by
  have e : (V1 m ρ c main_v3 : S1x64.Idx → EReal)
      = transpose S1x64 [1, 0] (broadcastInDim S64x1 ![0] bcast_S64_S64x1_0 (Host.reduceAdd (F := Ideal) (mulf (m ((c : Thread nD τ).loc main_arg1)) (m ((c : Thread nD τ).loc main_arg1))) (constant (F := Ideal) S_ .f32 0x00000000#32) reducesTo_S64x64_S64_d1 h_S_)) transposes_S64x1_S1x64_1_0 := by
    show StableHlo.after hostOps0 (W0 m ρ c) (Proc.devRef .tc main_v3) = _
    after_results
    try rfl
  rw [e]
  exact HostIdeal.c2_apply _ k

/-! ## What the first pipeline leaves, and the host's sum of the two cores' totals -/

theorem W2_v4_0 (c : Dev nD) :
    W2 m ρ c (Proc.devRef .tc main_v4_0) = Cert.Spec.Q (m ((c : Thread nD τ).loc main_arg0)) (m ((c : Thread nD τ).loc main_arg1)) :=
  (W2_arr m ρ c 3).trans (final3 (V1 m ρ) c _ _ (V1_arg0 m ρ c) (V1_arg1 m ρ c) (V1_v3 m ρ c))

/-- The second pipeline is entered with `Q`, -/
theorem V3_v4_0 (c : Dev nD) :
    V3 m ρ c main_v4_0 = Cert.Spec.Q (m ((c : Thread nD τ).loc main_arg0)) (m ((c : Thread nD τ).loc main_arg1)) :=
  (W3_of m ρ c main_v4_0 (by decide)).trans (W2_v4_0 m ρ c)

/-- and with the column sums of `Q`. -/
theorem V3_v7 (c : Dev nD) (k : Fin 64) :
    V3 m ρ c main_v7 (ix2 (0 : Fin 1) k)
      = Cert.Spec.colsum (Cert.Spec.Q (m ((c : Thread nD τ).loc main_arg0)) (m ((c : Thread nD τ).loc main_arg1))) k := by
  have e : (V3 m ρ c main_v7 : S1x64.Idx → EReal)
      = (addf (F := Ideal) (φ := .f32) (extractStridedSlice S1x64 ![0, 0] (W2 m ρ c (Proc.devRef .tc main_v4_1) : FVec Ideal S16x64 .f32) slices_S16x64_S1x64_0_0)
          (extractStridedSlice S1x64 ![8, 0] (W2 m ρ c (Proc.devRef .tc main_v4_1) : FVec Ideal S16x64 .f32) slices_S16x64_S1x64_8_0) : FVec Ideal S1x64 .f32) := by
    show StableHlo.after hostOps1 (W2 m ρ c) (Proc.devRef .tc main_v7) = _
    after_results
    try rfl
  rw [e]
  refine (HostIdeal.v7_apply _ k).trans ?_
  have h4 : (W2 m ρ c (Proc.devRef .tc main_v4_1) : FVec Ideal S16x64 .f32) = (dat0 (V1 m ρ) c).arrAt 4 cfg0.N := W2_arr m ρ c 4
  rw [h4, final4_row0 (V1 m ρ) c k, final4_row8 (V1 m ρ) c k]
  exact colsum_rows (V1 m ρ) c _ _ (V1_arg0 m ρ c) (V1_arg1 m ρ c) (V1_v3 m ρ c) k

/-! ## The two results after the run -/

theorem W4_v4_0 (c : Dev nD) :
    W4 m ρ c (Proc.devRef .tc main_v4_0) = Cert.Spec.Q (m ((c : Thread nD τ).loc main_arg0)) (m ((c : Thread nD τ).loc main_arg1)) :=
  (W4_arr m ρ c 0).trans ((((dat1 (V3 m ρ) c).arrAt_in 0 rfl _).trans (A_eq1 (V3 m ρ) c 0)).trans (V3_v4_0 m ρ c))

theorem W4_v8 (c : Dev nD) :
    W4 m ρ c (Proc.devRef .tc main_v8) = Cert.Spec.P (m ((c : Thread nD τ).loc main_arg0)) (m ((c : Thread nD τ).loc main_arg1)) :=
  (W4_arr m ρ c 2).trans (Cert.KernelIdeal.Val1.final_P (V3 m ρ) c _ _ (V3_v4_0 m ρ c) (V3_v7 m ρ c))

/-- THE KERNEL PROGRAM'S RUN at the ideal values: both results as functions of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v4_0) = Cert.Spec.Q (m ((c.tc : Thread nD τ).loc main_arg0)) (m ((c.tc : Thread nD τ).loc main_arg1))
      ∧ r.2.mem ((c.tc : Thread nD τ).loc main_v8) = Cert.Spec.P (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v4_0 (by decide))).trans (W4_v4_0 m ρ c),
     (h c _ (mem_uc main_v8 (by decide))).trans (W4_v8 m ρ c),
     (h c _ (mem_uc main_arg0 (by decide))).trans (W4_main_arg0 m ρ c),
     (h c _ (mem_uc main_arg1 (by decide))).trans (W4_main_arg1 m ρ c)⟩) (run_all m ρ)

end Cert.KernelIdeal.Val

end
-- ==== Proof.RefSide.lean ====
/-
  The reference program read at the ideal values: its result arrays as functions of the argument arrays.
-/
import proofs.«115045_j25494925869839_2_alg».proof.Proof.Gen.ReferenceIdeal.Read
import proofs.«115045_j25494925869839_2_alg».proof.Proof.Spec
import Idealize.ShloMosaic.Lib.IdealHost

noncomputable section

namespace Cert.ReferenceIdeal.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The scalar law: a power with exponent minus one is the reciprocal -/

/-- The f32 word `0xBF800000` is the real minus one. -/
theorem ofBits_neg_one_f32 : Ideal.ofBits .f32 0xBF800000#32 = ((-1 : ℝ) : EReal) := by
  simp [Ideal.ofBits, Ideal.ieee, -EReal.coe_mul, -EReal.coe_neg]; norm_num

/-- At a positive base (the top element included) the power with exponent minus one is one divided by the base. -/
theorem pow_neg_one_of_pos (b : EReal) (hb : 0 < b) :
    Ideal.pow b (Ideal.ofBits .f32 0xBF800000#32) = Ideal.div 1 b := by
  rw [ofBits_neg_one_f32]
  induction b using EReal.rec with
  | bot => exact absurd hb (by simp)
  | top =>
    have h1 : ¬ (0 : EReal) < ((-1 : ℝ) : EReal) := by
      rw [not_lt]; exact EReal.coe_nonpos.mpr (by norm_num)
    have h2 : ¬ ((-1 : ℝ) : EReal) = 0 := by
      intro h; have := EReal.coe_eq_zero.mp h; norm_num at this
    rw [Ideal.pow_top, if_neg h1, if_neg h2]
    unfold Ideal.div
    rw [if_neg (by simp), EReal.inv_top, mul_zero]
  | coe r =>
    have hr : 0 < r := by exact_mod_cast hb
    have hne : ((r : ℝ) : EReal) ≠ 0 := by exact_mod_cast hr.ne'
    rw [Ideal.pow_coe_coe]
    unfold Ideal.div
    rw [if_neg hne, one_mul, ← EReal.coe_inv]
    congr 1
    exact Real.rpow_neg_one r

/-- The soft assignment's kernel: for a distance `s` that is not negative, `(1 + s/1)` to the power minus one is
    `1 / (1 + s/1)`, the words of one and minus one read as the numbers they encode. -/
theorem pow_neg_one (s : EReal) (hs : 0 ≤ s) :
    Ideal.pow (Cert.Spec.w1 + Ideal.div s Cert.Spec.w1) (Ideal.ofBits .f32 0xBF800000#32)
      = Ideal.div Cert.Spec.w1 (Cert.Spec.w1 + Ideal.div s Cert.Spec.w1) := by
  have hw : Cert.Spec.w1 = 1 := Ideal.ofBits_one_f32
  have hd : Ideal.div s (1 : EReal) = s := by
    unfold Ideal.div; rw [if_neg one_ne_zero, inv_one, mul_one]
  rw [hw, hd]
  refine pow_neg_one_of_pos _ ?_
  exact lt_of_lt_of_le zero_lt_one (le_add_of_nonneg_right hs)

/-- The square root of an extended real that is not negative is not negative. -/
theorem sqrt_nonneg (x : EReal) (hx : 0 ≤ x) : 0 ≤ Ideal.sqrt x := by
  induction x using EReal.rec with
  | bot => exact absurd hx (by simp)
  | top => simp
  | coe r =>
    have hr : 0 ≤ r := by exact_mod_cast hx
    rw [Ideal.sqrt_coe, if_neg (not_lt.mpr hr)]
    exact_mod_cast Real.sqrt_nonneg r

/-! ## The composed index functions are the coordinates -/

section Indices
variable (b : Fin 1048576) (k : Fin 64)

theorem idx_z2 (h : Fin 64) : idx_main_v1 (idx_main_v2 (idx_main_v6 (ix2 b k))) h = ix2 b h := by
  funext a; match a with | ⟨0, _⟩ => rfl | ⟨1, _⟩ => rfl

theorem idx_c2 (h : Fin 64) : idx_main_v4 (idx_main_v5 (idx_main_v7 (ix2 b k))) h = ix2 k h := by
  funext a; match a with | ⟨0, _⟩ => rfl | ⟨1, _⟩ => rfl

theorem idx_dotl (h : Fin 64) : lidx_main_v10 (ix2 b k) h = ix2 b h := by
  funext a; match a with | ⟨0, _⟩ => rfl | ⟨1, _⟩ => rfl

theorem idx_dotr (h : Fin 64) : idx_main_v9 (ridx_main_v10 (ix2 b k) h) = ix2 k h := by
  funext a; match a with | ⟨0, _⟩ => rfl | ⟨1, _⟩ => rfl

theorem idx_qsum (k' : Fin 64) : idx_main_v23 (idx_main_v24 (idx_main_v25 (ix2 b k))) k' = ix2 b k' := by
  funext a; match a with | ⟨0, _⟩ => rfl | ⟨1, _⟩ => rfl

theorem idx_col (b' : Fin 1048576) : idx_main_v28 (idx_main_v29 (idx_main_v30 (ix2 b k))) b' = ix2 b' k := by
  funext a; match a with | ⟨0, _⟩ => rfl | ⟨1, _⟩ => rfl

theorem idx_psum (k' : Fin 64) : idx_main_v32 (idx_main_v33 (idx_main_v34 (ix2 b k))) k' = ix2 b k' := by
  funext a; match a with | ⟨0, _⟩ => rfl | ⟨1, _⟩ => rfl

end Indices

/-! ## The stages at an index -/

section Stages
variable (x0 : FVec Ideal S1048576x64 .f32) (x1 : FVec Ideal S64x64 .f32)

/-- The squared distance's three terms at `(b, k)`. -/
theorem v13_at (b : Fin 1048576) (k : Fin 64) :
    val_main_v13 (F := Ideal) x0 x1 (ix2 b k)
      = ((∑ h : Fin 64, x0 (ix2 b h) * x0 (ix2 b h)) + Cert.Spec.cnorm x1 k)
        - Cert.Spec.w2 * ∑ h : Fin 64, x0 (ix2 b h) * x1 (ix2 k h) := by
  rw [val_main_v13_apply, val_main_v8_apply, val_main_v12_apply, val_main_v6_apply, val_main_v2_apply, val_main_v1_apply,
    val_main_v7_apply, val_main_v5_apply, val_main_v4_apply, val_main_v11_apply, val_main_v10_apply,
    val_main_cst_apply, val_main_cst_0_apply, val_main_cst_1_apply]
  simp only [Ideal.ofBits_def, Ideal.ofBits_zero_f32, zero_add, Ideal.addf_def, Ideal.subf_def, Ideal.mulf_def,
    val_main_v0_apply, val_main_v3_apply, val_main_v9_apply, idx_z2, idx_c2, idx_dotl, idx_dotr]
  rfl

/-- The unnormalised soft assignment at `(b, k)`: the power with exponent minus one is the reciprocal, the base being
    one plus a square root, which is not negative. -/
theorem v22_at (b : Fin 1048576) (k : Fin 64) :
    val_main_v22 (F := Ideal) x0 x1 (ix2 b k)
      = Cert.Spec.qraw (fun h => x0 (ix2 b h)) x1 (Cert.Spec.cnorm x1) k := by
  rw [val_main_v22_apply, val_main_v21_apply, val_main_cst_5_apply, val_main_v20_apply, val_main_v19_apply,
    val_main_cst_4_apply, val_main_v18_apply, val_main_v17_apply, val_main_cst_3_apply, val_main_v16_apply,
    val_main_v15_apply, val_main_v14_apply, val_main_cst_2_apply, v13_at]
  simp only [Ideal.ofBits_def, Ideal.addf_def, Ideal.hostDivf_def, Ideal.hostUnary_sqrt_def, Ideal.maximumf_def,
    Ideal.hostPowf_def]
  exact pow_neg_one _ (sqrt_nonneg _ (le_max_of_le_right (le_of_eq Ideal.ofBits_zero_f32.symm)))

/-- The first result at `(b, k)`. -/
theorem v26_at (b : Fin 1048576) (k : Fin 64) :
    val_main_v26 (F := Ideal) x0 x1 (ix2 b k) = Cert.Spec.Qat x0 x1 b k := by
  rw [val_main_v26_apply, val_main_v25_apply, val_main_v24_apply, val_main_v23_apply, val_main_cst_6_apply, v22_at]
  simp only [Ideal.ofBits_def, Ideal.ofBits_zero_f32, zero_add, Ideal.hostDivf_def, idx_qsum, v22_at]
  rfl

/-- The first result is the soft assignment. -/
theorem q_eq : val_main_v26 (F := Ideal) x0 x1 = Cert.Spec.Q x0 x1 := by
  funext i
  obtain ⟨b, k, rfl⟩ : ∃ b k, i = ix2 b k := ⟨i 0, i 1, eq_ix2 i⟩
  exact v26_at x0 x1 b k

end Stages

/-! ## The second result -/

section Second
variable (x0 : FVec Ideal S1048576x64 .f32) (x1 : FVec Ideal S64x64 .f32)

/-- The squared soft assignment over its column sum, at `(b, k)`. -/
theorem v31_at (b : Fin 1048576) (k : Fin 64) :
    val_main_v31 (F := Ideal) x0 x1 (ix2 b k)
      = Cert.Spec.praw (fun k' => Cert.Spec.Q x0 x1 (ix2 b k')) (Cert.Spec.colsum (Cert.Spec.Q x0 x1)) k := by
  rw [val_main_v31_apply, val_main_v27_apply, val_main_v30_apply, val_main_v29_apply, val_main_v28_apply,
    val_main_cst_7_apply, q_eq]
  simp only [Ideal.ofBits_def, Ideal.ofBits_zero_f32, zero_add, Ideal.hostDivf_def, Ideal.mulf_def, idx_col]
  rfl

/-- The second result at `(b, k)`. -/
theorem v35_at (b : Fin 1048576) (k : Fin 64) :
    val_main_v35 (F := Ideal) x0 x1 (ix2 b k) = Cert.Spec.Pat x0 x1 b k := by
  rw [val_main_v35_apply, val_main_v34_apply, val_main_v33_apply, val_main_v32_apply, val_main_cst_8_apply, v31_at]
  simp only [Ideal.ofBits_def, Ideal.ofBits_zero_f32, zero_add, Ideal.hostDivf_def, idx_psum, v31_at]
  rfl

/-- The second result is the target distribution. -/
theorem p_eq : val_main_v35 (F := Ideal) x0 x1 = Cert.Spec.P x0 x1 := by
  funext i
  obtain ⟨b, k, rfl⟩ : ∃ b k, i = ix2 b k := ⟨i 0, i 1, eq_ix2 i⟩
  exact v35_at x0 x1 b k

end Second

/-! ## The run -/

/-- On every device, from any memory with zero counters, every weakly fair execution of the reference program
    terminates with the first result at the soft assignments of the argument arrays' launch contents, the second at
    the target distribution, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread _ _).loc Cert.ReferenceIdeal.main_v26)
          = Cert.Spec.Q (m ((c.tc : Thread _ _).loc Cert.ReferenceIdeal.main_arg0)) (m ((c.tc : Thread _ _).loc Cert.ReferenceIdeal.main_arg1))
      ∧ r.2.mem ((c.tc : Thread _ _).loc Cert.ReferenceIdeal.main_v35)
          = Cert.Spec.P (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun _ h c => ⟨(h c).1.trans ((val_main_v26_eq _ _).trans (q_eq _ _)),
      (h c).2.1.trans ((val_main_v35_eq m c).trans (p_eq _ _)), (h c).2.2.1, (h c).2.2.2⟩)
    (Cert.ReferenceIdeal.Value.run (F := Ideal) m ρ)

end Cert.ReferenceIdeal.RefSide

end
-- ==== Proof.lean ====
/-
  Student-t soft assignments `Q` of a million 64-dimensional rows to 64 centroids, and the sharpened target distribution
  `P`: a kernel program of two pipelined passes against the plain array program.

  The first pass walks the rows in 128 blocks of 8192, 64 blocks on each of two cores: per block it computes the squared
  distances (‖z‖² + ‖c‖²) − 2·z·cᵀ, the kernel 1/(1 + √max(d², 0)), normalises each row, stores the block of `Q` and adds
  the block's column sums into an accumulator that the core's last block copies out. The host adds the two cores'
  totals, and the second pass divides `Q·Q` by those column sums and normalises each row again.

  On the extended reals the two programs compute the same functions of the arguments, index by index: a sum may be taken
  in any order and grouping (the blocks, the two cores), a product with a transposed matrix is the sum over the shared
  axis, a change of float format is the identity, and the reference's power with exponent −1 of a base that is at least 1
  (or +∞) is the kernel's reciprocal. No finiteness of the arguments is needed. Each program also runs to the end without
  a fault and leaves its arguments unchanged; the idealized kernel is the kernel's own text read at the ideal values.
-/
import proofs.«115045_j25494925869839_2_alg».proof.Defs
import proofs.«115045_j25494925869839_2_alg».proof.Proof.Gen.Kernel
import proofs.«115045_j25494925869839_2_alg».proof.Proof.Gen.KernelIdeal
import proofs.«115045_j25494925869839_2_alg».proof.Proof.Gen.ReferenceIdeal
import proofs.«115045_j25494925869839_2_alg».proof.Proof.Gen.Pre_finite_inputs
import proofs.«115045_j25494925869839_2_alg».proof.Proof.KRun
import proofs.«115045_j25494925869839_2_alg».proof.Proof.KIVal
import proofs.«115045_j25494925869839_2_alg».proof.Proof.RefSide
import Idealize.ShloMosaic.Adequacy
import Idealize.ShloMosaic.Init

noncomputable section

namespace Cert.Proof

open Idealize.ShloMosaic Idealize.SL.Sem

/-- The kernel program as printed runs to the end and leaves its arguments unchanged. -/
theorem frame_k : Cert.frame_Kernel := fun m ρ _ => Cert.Kernel.Fr.frame m ρ

/-- So does its reading at the ideal values. -/
theorem frame_ki : Cert.frame_KernelIdeal := fun m ρ _ => Cert.KernelIdeal.Fr.frame m ρ

/-- So does the reference: its run with the results dropped. -/
theorem frame_ri : Cert.frame_ReferenceIdeal := fun m ρ _ =>
  (θ_run Cert.ReferenceIdeal.defs _ _).mono (fun _ h c => ⟨(h c).2.2.1, (h c).2.2.2⟩) (Cert.ReferenceIdeal.RefSide.run m ρ)

/-- The idealization rewrote no operation. -/
theorem preserves : Cert.preserves_Kernel_KernelIdeal := trivial

/-- From memories agreeing on the arguments both programs end with `Q` and `P` of the arguments. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun r h c => ?_) (Cert.ReferenceIdeal.RefSide.run m' ρ')
  obtain ⟨h1, h2, h3, h4⟩ := h c
  refine ⟨?_, ?_, h3, h4⟩
  · rw [h1, (hagree c).1, (hagree c).2]
  · rw [h2, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
